-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S512 : Shape := ⟨1, ![512]⟩
abbrev S512x512 : Shape := ⟨2, ![512, 512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x512x32x32 .f32) (main_arg1 : FVec F S512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S32x512x32x32 : Shape := ⟨4, ![32, 512, 32, 32]⟩
abbrev S512 : Shape := ⟨1, ![512]⟩
abbrev S512x512 : Shape := ⟨2, ![512, 512]⟩
abbrev S32x512x1024 : Shape := ⟨3, ![32, 512, 1024]⟩
abbrev S1x512x1024 : Shape := ⟨3, ![1, 512, 1024]⟩
abbrev S512x1024 : Shape := ⟨2, ![512, 1024]⟩
abbrev S32x16 : Shape := ⟨2, ![32, 16]⟩
abbrev S32 : Shape := ⟨1, ![32]⟩
abbrev S32x1 : Shape := ⟨2, ![32, 1]⟩
abbrev S512x1 : Shape := ⟨2, ![512, 1]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S32x512x32x32, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S32x512x1024, .f32⟩
  | .hbm, ⟨12, _⟩ => ⟨S512x512, .bf16⟩
  | .hbm, ⟨13, _⟩ => ⟨S512x512, .bf16⟩
  | .hbm, ⟨14, _⟩ => ⟨S512x512, .bf16⟩
  | .hbm, ⟨15, _⟩ => ⟨S512x512, .bf16⟩
  | .hbm, ⟨16, _⟩ => ⟨S32x512x1024, .f32⟩
  | .hbm, ⟨17, _⟩ => ⟨S32x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S512, .f32⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S1x512x1024, .f32⟩
  | .local _ .vmem, ⟨13, _⟩ => ⟨S1x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S32x512x32x32_S32x512x1024 : S32x512x32x32.ShapeCasts S32x512x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S32x16 : S512.ShapeCasts S32x16
  reduces_S32x16_S32 : S32x16.Reduces [1] S32
  shapeCasts_S32_S32x1 : S32.ShapeCasts S32x1
  shapeCasts_S32x1_S32x1 : S32x1.ShapeCasts S32x1
  broadcasts_S32x1_S32x16 : S32x1.Broadcasts S32x16
  shapeCasts_S32x16_S512 : S32x16.ShapeCasts S512
  shapeCasts_S512_S512x1 : S512.ShapeCasts S512x1
  broadcasts_S512x1_S512x1024 : S512x1.Broadcasts S512x1024
  inb_S512_S512_0 : ∀ a, (![0] : Fin 1 → Nat) a + S512.size a ≤ S512.size a
  h_S512 : 0 < S512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x1024_S1024 : S1024x1024.Reduces [1] S1024
  shapeCasts_S1024_S1024x1 : S1024.ShapeCasts S1024x1
  broadcasts_S1024x1_S1024x1024 : S1024x1.Broadcasts S1024x1024
  shapeCasts_S512x1024_S1x512x1024 : S512x1024.ShapeCasts S1x512x1024
  shapeCasts_S32x512x1024_S32x512x32x32 : S32x512x1024.ShapeCasts S32x512x32x32
  dot_S512x512_S512x1024_S512x1024_1_0_0_1_n_n_wf : DotDims.WF S512x512 S512x1024 S512x1024 [1] [0] [0] [1] [] []
  dot_S512x1024_S512x1024_S1024x1024_0_0_1_1_n_n_wf : DotDims.WF S512x1024 S512x1024 S1024x1024 [0] [0] [1] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S32x512x1024.size a
  hwx0_11 : ∀ i : grid0.Coords, EltTy.bits .f32 = 32 ∨ (Rect.block (s := S32x512x1024) S1x512x1024.size (cc0_transform_11 i) (hinb0_11 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S512 : Shape := ⟨1, ![512]⟩
abbrev S512x512 : Shape := ⟨2, ![512, 512]⟩
abbrev S32x32x16x32x32 : Shape := ⟨5, ![32, 32, 16, 32, 32]⟩
abbrev S_ : Shape := ⟨0, ![]⟩
abbrev S32x32 : Shape := ⟨2, ![32, 32]⟩
abbrev S32x32x1x1x1 : Shape := ⟨5, ![32, 32, 1, 1, 1]⟩
abbrev S1x512x1x1 : Shape := ⟨4, ![1, 512, 1, 1]⟩
abbrev S32x32x32x512 : Shape := ⟨4, ![32, 32, 32, 512]⟩
abbrev S32x1024x512 : Shape := ⟨3, ![32, 1024, 512]⟩
abbrev S1x1x512 : Shape := ⟨3, ![1, 1, 512]⟩
abbrev S32x1024x1024 : Shape := ⟨3, ![32, 1024, 1024]⟩
abbrev S32x1024 : Shape := ⟨2, ![32, 1024]⟩
abbrev S32x1024x1 : Shape := ⟨3, ![32, 1024, 1]⟩

abbrev nBuf : Space → Nat
  | .hbm => 97
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S32x32x16x32x32, .f32⟩
  | .hbm, ⟨12, _⟩ => ⟨S_, .f32⟩
  | .hbm, ⟨13, _⟩ => ⟨S32x32, .f32⟩
  | .hbm, ⟨14, _⟩ => ⟨S32x32x1x1x1, .f32⟩
  | .hbm, ⟨15, _⟩ => ⟨S_, .f32⟩
  | .hbm, ⟨16, _⟩ => ⟨S32x32x1x1x1, .f32⟩
  | .hbm, ⟨17, _⟩ => ⟨S32x32x1x1x1, .f32⟩
  | .hbm, ⟨18, _⟩ => ⟨S_, .i32⟩
  | .hbm, ⟨19, _⟩ => ⟨S_, .f32⟩
  | .hbm, ⟨20, _⟩ => ⟨S32x32, .f32⟩
  | .hbm, ⟨21, _⟩ => ⟨S32x32x1x1x1, .f32⟩
  | .hbm, ⟨22, _⟩ => ⟨S_, .f32⟩
  | .hbm, ⟨23, _⟩ => ⟨S32x32x1x1x1, .f32⟩
  | .hbm, ⟨24, _⟩ => ⟨S32x32x1x1x1, .f32⟩
  | .hbm, ⟨25, _⟩ => ⟨S32x32x16x32x32, .f32⟩
  | .hbm, ⟨26, _⟩ => ⟨S32x32x16x32x32, .f32⟩
  | .hbm, ⟨27, _⟩ => ⟨S32x32x16x32x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x32, .f32⟩
  | .hbm, ⟨33, _⟩ => ⟨S32x32x1x1x1, .f32⟩
  | .hbm, ⟨34, _⟩ => ⟨S32x32x1x1x1, .f32⟩
  | .hbm, ⟨35, _⟩ => ⟨S32x32x1x1x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S32x32x1x1x1, .f32⟩
  | .hbm, ⟨41, _⟩ => ⟨S32x32x1x1x1, .f32⟩
  | .hbm, ⟨42, _⟩ => ⟨S32x32x16x32x32, .f32⟩
  | .hbm, ⟨43, _⟩ => ⟨S32x32x16x32x32, .f32⟩
  | .hbm, ⟨44, _⟩ => ⟨S_, .f32⟩
  | .hbm, ⟨45, _⟩ => ⟨S32x32x1x1x1, .f32⟩
  | .hbm, ⟨46, _⟩ => ⟨S32x32x1x1x1, .f32⟩
  | .hbm, ⟨47, _⟩ => ⟨S32x32x1x1x1, .f32⟩
  | .hbm, ⟨48, _⟩ => ⟨S32x32x16x32x32, .f32⟩
  | .hbm, ⟨49, _⟩ => ⟨S32x32x16x32x32, .f32⟩
  | .hbm, ⟨50, _⟩ => ⟨S32x512x32x32, .f32⟩
  | .hbm, ⟨51, _⟩ => ⟨S1x512x1x1, .f32⟩
  | .hbm, ⟨52, _⟩ => ⟨S32x512x32x32, .f32⟩
  | .hbm, ⟨53, _⟩ => ⟨S32x512x32x32, .f32⟩
  | .hbm, ⟨54, _⟩ => ⟨S1x512x1x1, .f32⟩
  | .hbm, ⟨55, _⟩ => ⟨S32x512x32x32, .f32⟩
  | .hbm, ⟨56, _⟩ => ⟨S32x512x32x32, .f32⟩
  | .hbm, ⟨57, _⟩ => ⟨S32x32x32x512, .f32⟩
  | .hbm, ⟨58, _⟩ => ⟨S32x1024x512, .f32⟩
  | .hbm, ⟨59, _⟩ => ⟨S32x1024x512, .f32⟩
  | .hbm, ⟨60, _⟩ => ⟨S1x1x512, .f32⟩
  | .hbm, ⟨61, _⟩ => ⟨S32x1024x512, .f32⟩
  | .hbm, ⟨62, _⟩ => ⟨S32x1024x512, .f32⟩
  | .hbm, ⟨63, _⟩ => ⟨S32x1024x512, .f32⟩
  | .hbm, ⟨64, _⟩ => ⟨S1x1x512, .f32⟩
  | .hbm, ⟨65, _⟩ => ⟨S32x1024x512, .f32⟩
  | .hbm, ⟨66, _⟩ => ⟨S32x1024x512, .f32⟩
  | .hbm, ⟨67, _⟩ => ⟨S32x1024x512, .f32⟩
  | .hbm, ⟨68, _⟩ => ⟨S1x1x512, .f32⟩
  | .hbm, ⟨69, _⟩ => ⟨S32x1024x512, .f32⟩
  | .hbm, ⟨70, _⟩ => ⟨S32x1024x512, .f32⟩
  | .hbm, ⟨71, _⟩ => ⟨S32x1024x1024, .f32⟩
  | .hbm, ⟨72, _⟩ => ⟨S_, .f32⟩
  | .hbm, ⟨73, _⟩ => ⟨S32x1024x1024, .f32⟩
  | .hbm, ⟨74, _⟩ => ⟨S32x1024x1024, .f32⟩
  | .hbm, ⟨75, _⟩ => ⟨S_, .f32⟩
  | .hbm, ⟨76, _⟩ => ⟨S32x1024, .f32⟩
  | .hbm, ⟨77, _⟩ => ⟨S_, .f32⟩
  | .hbm, ⟨78, _⟩ => ⟨S32x1024, .f32⟩
  | .hbm, ⟨79, _⟩ => ⟨S32x1024, .f32⟩
  | .hbm, ⟨80, _⟩ => ⟨S32x1024x1, .f32⟩
  | .hbm, ⟨81, _⟩ => ⟨S32x1024x1024, .f32⟩
  | .hbm, ⟨82, _⟩ => ⟨S32x1024x1024, .f32⟩
  | .hbm, ⟨83, _⟩ => ⟨S32x1024x1024, .f32⟩
  | .hbm, ⟨84, _⟩ => ⟨S_, .f32⟩
  | .hbm, ⟨85, _⟩ => ⟨S32x1024, .f32⟩
  | .hbm, ⟨86, _⟩ => ⟨S32x1024x1, .f32⟩
  | .hbm, ⟨87, _⟩ => ⟨S32x1024x1024, .f32⟩
  | .hbm, ⟨88, _⟩ => ⟨S32x1024x1024, .f32⟩
  | .hbm, ⟨89, _⟩ => ⟨S32x1024x512, .f32⟩
  | .hbm, ⟨90, _⟩ => ⟨S32x1024x512, .f32⟩
  | .hbm, ⟨91, _⟩ => ⟨S1x1x512, .f32⟩
  | .hbm, ⟨92, _⟩ => ⟨S32x1024x512, .f32⟩
  | .hbm, ⟨93, _⟩ => ⟨S32x1024x512, .f32⟩
  | .hbm, ⟨94, _⟩ => ⟨S32x32x32x512, .f32⟩
  | .hbm, ⟨95, _⟩ => ⟨S32x512x32x32, .f32⟩
  | .hbm, ⟨96, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_2 : Ref sig .tc := ⟨.hbm, 72, rfl⟩
abbrev main_v35 : Ref sig .tc := ⟨.hbm, 73, rfl⟩
abbrev main_v36 : Ref sig .tc := ⟨.hbm, 74, rfl⟩
abbrev main_cst_3 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_5 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩

abbrev nD : Nat := 1
abbrev τ : Topo := Topo.v7x

variable {F : FTy → Type} [FloatOps F]

class Facts₀ : Prop where
  shapeCasts_S32x512x32x32_S32x32x16x32x32 : S32x512x32x32.ShapeCasts S32x32x16x32x32
  reducesTo_S32x32x16x32x32_S32x32_d2_3_4 : S32x32x16x32x32.ReducesTo [2, 3, 4] S32x32
  h_S_ : 0 < S_.numel
  bcast_S32x32_S32x32x1x1x1_0_1 : S32x32.BroadcastsInDim S32x32x1x1x1 (![0, 1] : Fin 2 → Fin S32x32x1x1x1.rank)
  bcast_S_S32x32x1x1x1 : S_.BroadcastsInDim S32x32x1x1x1 (![] : Fin 0 → Fin S32x32x1x1x1.rank)
  bcast_S32x32x1x1x1_S32x32x16x32x32_0_1_2_3_4 : S32x32x1x1x1.BroadcastsInDim S32x32x16x32x32 (![0, 1, 2, 3, 4] : Fin 5 → Fin S32x32x16x32x32.rank)
  shapeCasts_S32x32x16x32x32_S32x512x32x32 : S32x32x16x32x32.ShapeCasts S32x512x32x32
  bcast_S512_S1x512x1x1_1 : S512.BroadcastsInDim S1x512x1x1 (![1] : Fin 1 → Fin S1x512x1x1.rank)
  bcast_S1x512x1x1_S32x512x32x32_0_1_2_3 : S1x512x1x1.BroadcastsInDim S32x512x32x32 (![0, 1, 2, 3] : Fin 4 → Fin S32x512x32x32.rank)
  transposes_S32x512x32x32_S32x32x32x512_0_2_3_1 : S32x512x32x32.Transposes [0, 2, 3, 1] S32x32x32x512
  shapeCasts_S32x32x32x512_S32x1024x512 : S32x32x32x512.ShapeCasts S32x1024x512
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x1024 : S_.BroadcastsInDim S32x1024x1024 (![] : Fin 0 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  shapeCasts_S32x1024x512_S32x32x32x512 : S32x1024x512.ShapeCasts S32x32x32x512
  transposes_S32x32x32x512_S32x512x32x32_0_3_1_2 : S32x32x32x512.Transposes [0, 3, 1, 2] S32x512x32x32
  dot_S32x1024x512_S512x512_S32x1024x512_2_1_01_0_n_n_wf : DotDims.WF S32x1024x512 S512x512 S32x1024x512 [2] [1] [0, 1] [0] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.KernelBlocks.lean ====
/-
  From blocks to the array. The call runs over 32 grid points; at point t the first window holds batch entry t of the
  [32, 512, 1024] input and the result window's block is batch entry t of the [32, 512, 1024] result, while the other ten
  windows hold their whole arrays at every point. So what point t writes back is block t of ONE function of the arrays
  the call finds: at (b, p, q), the body's stored block computed from batch entry b, read at (0, p, q). The 32 blocks
  cover the result array, which therefore ends holding that function.
-/
import proofs.«105434_j74663711474018_2_alg».proof.Proof.Gen.KernelIdeal.Frame
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.KernelValue

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The input window's block index at point t is (t, 0, 0). -/
theorem idx_w0 : ∀ t : Fin cfg0.N,
    win0_0.index t (0 : Fin 3) = t.val ∧ win0_0.index t (1 : Fin 3) = 0 ∧ win0_0.index t (2 : Fin 3) = 0 :=
  (by decide +kernel : ∀ t : Fin grid0.N, _)
/-- So is the result window's. -/
theorem idx_w11 : ∀ t : Fin cfg0.N,
    win0_11.index t (0 : Fin 3) = t.val ∧ win0_11.index t (1 : Fin 3) = 0 ∧ win0_11.index t (2 : Fin 3) = 0 :=
  (by decide +kernel : ∀ t : Fin grid0.N, _)

/-- The body's stored block as one function of the eleven loaded blocks. -/
def payAt (x0 : Vec Ideal S1x512x1024 .f32) (x1 x2 : Vec Ideal S512 .f32) (x3 : Vec Ideal S512x512 .bf16) (x4 : Vec Ideal S512 .f32)
    (x5 : Vec Ideal S512x512 .bf16) (x6 : Vec Ideal S512 .f32) (x7 : Vec Ideal S512x512 .bf16) (x8 : Vec Ideal S512 .f32)
    (x9 : Vec Ideal S512x512 .bf16) (x10 : Vec Ideal S512 .f32) : Vec Ideal S1x512x1024 .f32 :=
  k0_pay1 (k0_pay2 x0) (k0_pay5 (k0_pay3 x0 x1 x2) (k0_pay4 x0 x1 x2 x3) x4 x5 x6 x7 x8 x9) (k0_pay6 x10)

/-- Batch `b` of a [32,512,1024] array as a [1,512,1024] block. -/
def blk0 (A : S32x512x1024.Idx → EReal) (b : Fin 32) : Vec Ideal S1x512x1024 .f32 :=
  fun j => A (ix3 b (j 1) (j 2))

/-- The whole [32,512,1024] result: at (b, p, q) the body's block of batch `b` at (0, p, q). -/
def GK (A0 : S32x512x1024.Idx → EReal) (a1 a2 : S512.Idx → EReal) (w3 : S512x512.Idx → EReal) (a4 : S512.Idx → EReal)
    (w5 : S512x512.Idx → EReal) (a6 : S512.Idx → EReal) (w7 : S512x512.Idx → EReal) (a8 : S512.Idx → EReal)
    (w9 : S512x512.Idx → EReal) (a10 : S512.Idx → EReal) : S32x512x1024.Idx → EReal :=
  fun i => payAt (blk0 A0 (i 0)) a1 a2 w3 a4 w5 a6 w7 a8 w9 a10 (ix3 (0 : Fin 1) (i 1) (i 2))

theorem GK_apply (A0 : S32x512x1024.Idx → EReal) (a1 a2 : S512.Idx → EReal) (w3 : S512x512.Idx → EReal) (a4 : S512.Idx → EReal)
    (w5 : S512x512.Idx → EReal) (a6 : S512.Idx → EReal) (w7 : S512x512.Idx → EReal) (a8 : S512.Idx → EReal)
    (w9 : S512x512.Idx → EReal) (a10 : S512.Idx → EReal) (b : Fin 32) (p : Fin 512) (q : Fin 1024) :
    GK A0 a1 a2 w3 a4 w5 a6 w7 a8 w9 a10 (ix3 b p q) = payAt (blk0 A0 b) a1 a2 w3 a4 w5 a6 w7 a8 w9 a10 (ix3 (0 : Fin 1) p q) := rfl

theorem t_lt (t : Fin cfg0.N) : t.val < 32 := by have h : cfg0.N = 32 := N_0; have := t.isLt; omega

/-- The first window stages batch entry t of the input at point t. -/
theorem blk0_read (c : Dev nD) (t : Fin cfg0.N) :
    (iblk m c 0 t : Vec Ideal S1x512x1024 .f32) = blk0 (V m c main_v0) ⟨t.val, t_lt t⟩ := by
  obtain ⟨e0, e1, e2⟩ := idx_w0 t
  funext y
  show V m c main_v0 (((cfg0.win 0).blk t).view.emb y) = V m c main_v0 (ix3 ⟨t.val, t_lt t⟩ (y 1) (y 2))
  refine congrArg _ (funext fun a => Fin.ext ?_)
  match a with
  | ⟨0, _⟩ => show win0_0.index t (0 : Fin 3) * 1 + 1 * (y 0).val = t.val; have : (y 0).val < 1 := (y 0).isLt; omega
  | ⟨1, _⟩ => show win0_0.index t (1 : Fin 3) * 512 + 1 * (y 1).val = (y 1).val; omega
  | ⟨2, _⟩ => show win0_0.index t (2 : Fin 3) * 1024 + 1 * (y 2).val = (y 2).val; omega

theorem idx_w1 : ∀ t : Fin cfg0.N, win0_1.index t (0 : Fin 1) = 0 ∧ True :=
  (by decide +kernel : ∀ t : Fin grid0.N, _)

/-- Window 1 stages its whole array at every point. -/
theorem blk1_read (c : Dev nD) (t : Fin cfg0.N) : (iblk m c 1 t : Vec Ideal S512 .f32) = V m c main_arg1 := by
  funext y
  show V m c main_arg1 (((cfg0.win 1).blk t).view.emb y) = V m c main_arg1 y
  refine congrArg _ (funext fun a => Fin.ext ?_)
  match a with
  | ⟨0, _⟩ => show win0_1.index t (0 : Fin 1) * 512 + 1 * (y 0).val = (y 0).val; rw [(idx_w1 t).1]; omega

theorem idx_w2 : ∀ t : Fin cfg0.N, win0_2.index t (0 : Fin 1) = 0 ∧ True :=
  (by decide +kernel : ∀ t : Fin grid0.N, _)

/-- Window 2 stages its whole array at every point. -/
theorem blk2_read (c : Dev nD) (t : Fin cfg0.N) : (iblk m c 2 t : Vec Ideal S512 .f32) = V m c main_arg2 := by
  funext y
  show V m c main_arg2 (((cfg0.win 2).blk t).view.emb y) = V m c main_arg2 y
  refine congrArg _ (funext fun a => Fin.ext ?_)
  match a with
  | ⟨0, _⟩ => show win0_2.index t (0 : Fin 1) * 512 + 1 * (y 0).val = (y 0).val; rw [(idx_w2 t).1]; omega

theorem idx_w3 : ∀ t : Fin cfg0.N, win0_3.index t (0 : Fin 2) = 0 ∧ win0_3.index t (1 : Fin 2) = 0 :=
  (by decide +kernel : ∀ t : Fin grid0.N, _)

/-- Window 3 stages its whole array at every point. -/
theorem blk3_read (c : Dev nD) (t : Fin cfg0.N) : (iblk m c 3 t : Vec Ideal S512x512 .bf16) = V m c main_v1 := by
  funext y
  show V m c main_v1 (((cfg0.win 3).blk t).view.emb y) = V m c main_v1 y
  refine congrArg _ (funext fun a => Fin.ext ?_)
  match a with
  | ⟨0, _⟩ => show win0_3.index t (0 : Fin 2) * 512 + 1 * (y 0).val = (y 0).val; rw [(idx_w3 t).1]; omega
  | ⟨1, _⟩ => show win0_3.index t (1 : Fin 2) * 512 + 1 * (y 1).val = (y 1).val; rw [(idx_w3 t).2]; omega

theorem idx_w4 : ∀ t : Fin cfg0.N, win0_4.index t (0 : Fin 1) = 0 ∧ True :=
  (by decide +kernel : ∀ t : Fin grid0.N, _)

/-- Window 4 stages its whole array at every point. -/
theorem blk4_read (c : Dev nD) (t : Fin cfg0.N) : (iblk m c 4 t : Vec Ideal S512 .f32) = V m c main_arg4 := by
  funext y
  show V m c main_arg4 (((cfg0.win 4).blk t).view.emb y) = V m c main_arg4 y
  refine congrArg _ (funext fun a => Fin.ext ?_)
  match a with
  | ⟨0, _⟩ => show win0_4.index t (0 : Fin 1) * 512 + 1 * (y 0).val = (y 0).val; rw [(idx_w4 t).1]; omega

theorem idx_w5 : ∀ t : Fin cfg0.N, win0_5.index t (0 : Fin 2) = 0 ∧ win0_5.index t (1 : Fin 2) = 0 :=
  (by decide +kernel : ∀ t : Fin grid0.N, _)

/-- Window 5 stages its whole array at every point. -/
theorem blk5_read (c : Dev nD) (t : Fin cfg0.N) : (iblk m c 5 t : Vec Ideal S512x512 .bf16) = V m c main_v2 := by
  funext y
  show V m c main_v2 (((cfg0.win 5).blk t).view.emb y) = V m c main_v2 y
  refine congrArg _ (funext fun a => Fin.ext ?_)
  match a with
  | ⟨0, _⟩ => show win0_5.index t (0 : Fin 2) * 512 + 1 * (y 0).val = (y 0).val; rw [(idx_w5 t).1]; omega
  | ⟨1, _⟩ => show win0_5.index t (1 : Fin 2) * 512 + 1 * (y 1).val = (y 1).val; rw [(idx_w5 t).2]; omega

theorem idx_w6 : ∀ t : Fin cfg0.N, win0_6.index t (0 : Fin 1) = 0 ∧ True :=
  (by decide +kernel : ∀ t : Fin grid0.N, _)

/-- Window 6 stages its whole array at every point. -/
theorem blk6_read (c : Dev nD) (t : Fin cfg0.N) : (iblk m c 6 t : Vec Ideal S512 .f32) = V m c main_arg6 := by
  funext y
  show V m c main_arg6 (((cfg0.win 6).blk t).view.emb y) = V m c main_arg6 y
  refine congrArg _ (funext fun a => Fin.ext ?_)
  match a with
  | ⟨0, _⟩ => show win0_6.index t (0 : Fin 1) * 512 + 1 * (y 0).val = (y 0).val; rw [(idx_w6 t).1]; omega

theorem idx_w7 : ∀ t : Fin cfg0.N, win0_7.index t (0 : Fin 2) = 0 ∧ win0_7.index t (1 : Fin 2) = 0 :=
  (by decide +kernel : ∀ t : Fin grid0.N, _)

/-- Window 7 stages its whole array at every point. -/
theorem blk7_read (c : Dev nD) (t : Fin cfg0.N) : (iblk m c 7 t : Vec Ideal S512x512 .bf16) = V m c main_v3 := by
  funext y
  show V m c main_v3 (((cfg0.win 7).blk t).view.emb y) = V m c main_v3 y
  refine congrArg _ (funext fun a => Fin.ext ?_)
  match a with
  | ⟨0, _⟩ => show win0_7.index t (0 : Fin 2) * 512 + 1 * (y 0).val = (y 0).val; rw [(idx_w7 t).1]; omega
  | ⟨1, _⟩ => show win0_7.index t (1 : Fin 2) * 512 + 1 * (y 1).val = (y 1).val; rw [(idx_w7 t).2]; omega

theorem idx_w8 : ∀ t : Fin cfg0.N, win0_8.index t (0 : Fin 1) = 0 ∧ True :=
  (by decide +kernel : ∀ t : Fin grid0.N, _)

/-- Window 8 stages its whole array at every point. -/
theorem blk8_read (c : Dev nD) (t : Fin cfg0.N) : (iblk m c 8 t : Vec Ideal S512 .f32) = V m c main_arg8 := by
  funext y
  show V m c main_arg8 (((cfg0.win 8).blk t).view.emb y) = V m c main_arg8 y
  refine congrArg _ (funext fun a => Fin.ext ?_)
  match a with
  | ⟨0, _⟩ => show win0_8.index t (0 : Fin 1) * 512 + 1 * (y 0).val = (y 0).val; rw [(idx_w8 t).1]; omega

theorem idx_w9 : ∀ t : Fin cfg0.N, win0_9.index t (0 : Fin 2) = 0 ∧ win0_9.index t (1 : Fin 2) = 0 :=
  (by decide +kernel : ∀ t : Fin grid0.N, _)

/-- Window 9 stages its whole array at every point. -/
theorem blk9_read (c : Dev nD) (t : Fin cfg0.N) : (iblk m c 9 t : Vec Ideal S512x512 .bf16) = V m c main_v4 := by
  funext y
  show V m c main_v4 (((cfg0.win 9).blk t).view.emb y) = V m c main_v4 y
  refine congrArg _ (funext fun a => Fin.ext ?_)
  match a with
  | ⟨0, _⟩ => show win0_9.index t (0 : Fin 2) * 512 + 1 * (y 0).val = (y 0).val; rw [(idx_w9 t).1]; omega
  | ⟨1, _⟩ => show win0_9.index t (1 : Fin 2) * 512 + 1 * (y 1).val = (y 1).val; rw [(idx_w9 t).2]; omega

theorem idx_w10 : ∀ t : Fin cfg0.N, win0_10.index t (0 : Fin 1) = 0 ∧ True :=
  (by decide +kernel : ∀ t : Fin grid0.N, _)

/-- Window 10 stages its whole array at every point. -/
theorem blk10_read (c : Dev nD) (t : Fin cfg0.N) : (iblk m c 10 t : Vec Ideal S512 .f32) = V m c main_arg10 := by
  funext y
  show V m c main_arg10 (((cfg0.win 10).blk t).view.emb y) = V m c main_arg10 y
  refine congrArg _ (funext fun a => Fin.ext ?_)
  match a with
  | ⟨0, _⟩ => show win0_10.index t (0 : Fin 1) * 512 + 1 * (y 0).val = (y 0).val; rw [(idx_w10 t).1]; omega

/-- What point t writes back is block t of the one function of the arrays the call finds. -/
theorem flushed_eq (c : Dev nD) (t : Fin cfg0.N) :
    (dats m 0 c).flushed 11 t = ((cfg0.win 11).blk t).view.read (Elt Ideal)
      (GK (V m c main_v0) (V m c main_arg1) (V m c main_arg2) (V m c main_v1) (V m c main_arg4) (V m c main_v2)
        (V m c main_arg6) (V m c main_v3) (V m c main_arg8) (V m c main_v4) (V m c main_arg10)) := by
  show (cfg0.win 11).cut (grid0.coords t) ((dats m 0 c).after 11 t) = _
  rw [after0_11]
  unfold out0_11
  rw [View.canon_unit_zero hz3]
  simp only [View.ld_unit_zero (S := S1x512x1024) hz3, View.ld_unit_zero (S := S512) hz1, View.ld_unit_zero (S := S512x512) hz2]
  rw [blk0_read m c t, blk1_read m c t, blk2_read m c t, blk3_read m c t, blk4_read m c t, blk5_read m c t,
    blk6_read m c t, blk7_read m c t, blk8_read m c t, blk9_read m c t, blk10_read m c t]
  obtain ⟨e0, e1, e2⟩ := idx_w11 t
  funext j
  rw [View.read_apply]
  have hemb : ((cfg0.win 11).blk t).view.emb j = (ix3 ⟨t.val, t_lt t⟩ (j 1) (j 2) : S32x512x1024.Idx) := funext fun a => Fin.ext (by
    match a with
    | ⟨0, _⟩ => show win0_11.index t (0 : Fin 3) * 1 + 1 * (j 0).val = t.val; have : (j 0).val < 1 := (j 0).isLt; omega
    | ⟨1, _⟩ => show win0_11.index t (1 : Fin 3) * 512 + 1 * (j 1).val = (j 1).val; omega
    | ⟨2, _⟩ => show win0_11.index t (2 : Fin 3) * 1024 + 1 * (j 2).val = (j 2).val; omega)
  rw [hemb]
  have hj : (j : S1x512x1024.Idx) = ix3 (0 : Fin 1) (j 1) (j 2) := funext fun a => Fin.ext (by
    match a with
    | ⟨0, _⟩ => show (j 0).val = 0; have : (j 0).val < 1 := (j 0).isLt; omega
    | ⟨1, _⟩ => rfl
    | ⟨2, _⟩ => rfl)
  show payAt _ _ _ _ _ _ _ _ _ _ _ j = payAt _ _ _ _ _ _ _ _ _ _ _ (ix3 (0 : Fin 1) (j 1) (j 2))
  exact congrArg _ hj

/-- An index of the result array is in point t's block iff each coordinate is in the block's range on its axis. -/
theorem mem_blk (t : Fin cfg0.N) (i : S32x512x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v5).slice (win0_11.rect t)).set ↔ _
  rw [View.set_slice_whole, Rect.mem_set_unit]
  exact Iff.rfl

/-- Every index of the result array is in the block of the point its batch coordinate names. -/
theorem cover (i : S32x512x1024.Idx) :
    ∃ t : Fin cfg0.N, (cfg0.win 11).flush t = true ∧ i ∈ ((cfg0.win 11).blk t).view.set := by
  have hN : cfg0.N = 32 := N_0
  have hi0 : (i 0).val < 32 := (i 0).isLt
  have hi1 : (i 1).val < 512 := (i 1).isLt
  have hi2 : (i 2).val < 1024 := (i 2).isLt
  have ht : (i 0).val < cfg0.N := by omega
  refine ⟨⟨(i 0).val, ht⟩, flush0_11 _, ?_⟩
  rw [mem_blk]
  obtain ⟨e0, e1, e2⟩ := idx_w11 ⟨(i 0).val, ht⟩
  have e0' : win0_11.index ⟨(i 0).val, ht⟩ (0 : Fin 3) = (i 0).val := e0
  intro a
  match a with
  | ⟨0, _⟩ => show win0_11.index ⟨(i 0).val, ht⟩ (0 : Fin 3) * 1 ≤ (i 0).val ∧ (i 0).val < win0_11.index ⟨(i 0).val, ht⟩ (0 : Fin 3) * 1 + 1; rw [e0']; omega
  | ⟨1, _⟩ => show win0_11.index ⟨(i 0).val, ht⟩ (1 : Fin 3) * 512 ≤ (i 1).val ∧ (i 1).val < win0_11.index ⟨(i 0).val, ht⟩ (1 : Fin 3) * 512 + 512; rw [e1]; omega
  | ⟨2, _⟩ => show win0_11.index ⟨(i 0).val, ht⟩ (2 : Fin 3) * 1024 ≤ (i 2).val ∧ (i 2).val < win0_11.index ⟨(i 0).val, ht⟩ (2 : Fin 3) * 1024 + 1024; rw [e2]; omega

/-- The result array after the call. -/
theorem final (c : Dev nD) : (dats m 0 c).arrAt 11 cfg0.N
    = GK (V m c main_v0) (V m c main_arg1) (V m c main_arg2) (V m c main_v1) (V m c main_arg4) (V m c main_v2)
        (V m c main_arg6) (V m c main_v3) (V m c main_arg8) (V m c main_v4) (V m c main_arg10) :=
  (dats m 0 c).arrAt_eq_of_cover 11 _ (fun t _ => flushed_eq m c t) cover

end Cert.KernelIdeal.KernelValue

end
-- ==== Proof.Spec.lean ====
/-
  The specification: GroupNorm followed by single-head attention and a residual sum, for ONE batch entry, on the
  extended reals, as functions of a [512 channels] × [1024 tokens] array — no program, no array shapes.

  Two spellings of the normalisation are given. The first takes the group statistics from channel sums (a sum over
  the 1024 tokens, then over the 16 channels of the group) and the variance as E[x²] − (E[x])². The second sums a
  group's 16 · 32 · 32 entries at once (tokens written as 32 · row + column) and takes the variance as the mean of the
  squared deviations from the mean. On real inputs the two agree (`Cert.Attn.normK_eq_normR`, in the module that
  imports this one); everything after the normalisation is one function of the normalised array.
-/
import Idealize.ShloMosaic.PureOps.Ideal

noncomputable section

namespace Cert.Attn

open Idealize.ShloMosaic

/-- Channel 16·g + j of group g. -/
def chan (g : Fin 32) (j : Fin 16) : Fin 512 := ⟨g.val * 16 + j.val, by omega⟩
/-- The group of a channel. -/
def grp (c : Fin 512) : Fin 32 := ⟨c.val / 16, by omega⟩
/-- Token 32·h + w of row h, column w. -/
def tok (h w : Fin 32) : Fin 1024 := ⟨h.val * 32 + w.val, by omega⟩
/-- The row of a token. -/
def rowOf (n : Fin 1024) : Fin 32 := ⟨n.val / 32, by omega⟩
/-- The column of a token. -/
def colOf (n : Fin 1024) : Fin 32 := ⟨n.val % 32, by omega⟩

/-- The group size 16 · 32 · 32 = 16384 as the float word both programs divide by. -/
def count : EReal := Ideal.ofBits .f32 0x46800000#32
/-- The ε of the normalisation, as the float word. -/
def eps : EReal := Ideal.ofBits .f32 0x3727C5AC#32
/-- The score scale 512^(-1/2), as the float word (never evaluated: both programs carry the same word). -/
def scale : EReal := Ideal.ofBits .f32 0x3D3504F3#32

section Norm

variable (X : Fin 512 → Fin 1024 → EReal)

/-- A group's sum, channel by channel: over the tokens, then over the group's channels. -/
def sumK (f : Fin 512 → Fin 1024 → EReal) (g : Fin 32) : EReal := ∑ j : Fin 16, ∑ n : Fin 1024, f (chan g j) n
/-- A group's sum over channel in group, row and column at once. -/
def sumR (f : Fin 512 → Fin 1024 → EReal) (g : Fin 32) : EReal :=
  ∑ j : Fin 16, ∑ h : Fin 32, ∑ w : Fin 32, f (chan g j) (tok h w)

def meanK (g : Fin 32) : EReal := Ideal.div (sumK X g) count
/-- E[x²] − (E[x])². -/
def varK (g : Fin 32) : EReal := Ideal.div (sumK (fun c n => X c n * X c n) g) count - meanK X g * meanK X g
def rstdK (g : Fin 32) : EReal := Ideal.rsqrt (varK X g + eps)

def meanR (g : Fin 32) : EReal := Ideal.div (sumR X g) count
/-- The mean of the squared deviations from the group mean. -/
def varR (g : Fin 32) : EReal :=
  Ideal.div (∑ j : Fin 16, ∑ h : Fin 32, ∑ w : Fin 32,
    (X (chan g j) (tok h w) - meanR X g) * (X (chan g j) (tok h w) - meanR X g)) count
def rstdR (g : Fin 32) : EReal := Ideal.rsqrt (varR X g + eps)

/-- Normalise by given group statistics, then the per-channel affine map. -/
def normed (mean rstd : Fin 32 → EReal) (gw gb : Fin 512 → EReal) : Fin 512 → Fin 1024 → EReal :=
  fun c n => (X c n - mean (grp c)) * rstd (grp c) * gw c + gb c

def normK (gw gb : Fin 512 → EReal) : Fin 512 → Fin 1024 → EReal := normed X (meanK X) (rstdK X) gw gb
def normR (gw gb : Fin 512 → EReal) : Fin 512 → Fin 1024 → EReal := normed X (meanR X) (rstdR X) gw gb

end Norm

section Attention

/-- A linear projection along the channels: (W h)(o, n) + b(o). -/
def proj (W : Fin 512 → Fin 512 → EReal) (b : Fin 512 → EReal) (h : Fin 512 → Fin 1024 → EReal) :
    Fin 512 → Fin 1024 → EReal := fun o n => (∑ c : Fin 512, W o c * h c n) + b o

/-- Scaled scores of query token n against key token m. -/
def score (q k : Fin 512 → Fin 1024 → EReal) : Fin 1024 → Fin 1024 → EReal :=
  fun n m => (∑ c : Fin 512, q c n * k c m) * scale

/-- A row's maximum, folded from -∞. -/
def rowMax (s : Fin 1024 → Fin 1024 → EReal) (n : Fin 1024) : EReal :=
  (Finset.univ : Finset (Fin 1024)).fold max (⊥ : EReal) (s n)

def expo (s : Fin 1024 → Fin 1024 → EReal) (n m : Fin 1024) : EReal := Ideal.exp (s n m - rowMax s n)

/-- The row softmax. -/
def soft (s : Fin 1024 → Fin 1024 → EReal) (n m : Fin 1024) : EReal :=
  Ideal.div (expo s n m) (∑ m' : Fin 1024, expo s n m')

/-- The attention-weighted sum of the values, channel-major. -/
def mix (v : Fin 512 → Fin 1024 → EReal) (a : Fin 1024 → Fin 1024 → EReal) : Fin 512 → Fin 1024 → EReal :=
  fun c n => ∑ m : Fin 1024, v c m * a n m

/-- Attention on a normalised array, with the output projection. -/
def attend (h : Fin 512 → Fin 1024 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wp : Fin 512 → Fin 512 → EReal) (bp : Fin 512 → EReal) :
    Fin 512 → Fin 1024 → EReal :=
  proj Wp bp (mix (proj Wv bv h) (soft (score (proj Wq bq h) (proj Wk bk h))))

end Attention

/-- One batch entry's result with the statistics taken channel by channel. -/
def outK (X : Fin 512 → Fin 1024 → EReal) (gw gb : Fin 512 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wp : Fin 512 → Fin 512 → EReal) (bp : Fin 512 → EReal) :
    Fin 512 → Fin 1024 → EReal :=
  fun c n => X c n + attend (normK X gw gb) Wq bq Wk bk Wv bv Wp bp c n

/-- One batch entry's result with the statistics taken over the whole group at once. -/
def outR (X : Fin 512 → Fin 1024 → EReal) (gw gb : Fin 512 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wp : Fin 512 → Fin 512 → EReal) (bp : Fin 512 → EReal) :
    Fin 512 → Fin 1024 → EReal :=
  fun c n => X c n + attend (normR X gw gb) Wq bq Wk bk Wv bv Wp bp c n

end Cert.Attn

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibMatmulTN.lean ====
/-
  A matrix product contracting the rows of BOTH operands, read at an entry: for a `[K, n]` matrix and a `[K, m]`
  matrix accumulated into zero, entry `(q, c)` of the `[n, m]` result is the sum over `k` of
  `lhs (k, q) * rhs (k, c)` — the transposed left operand times the right operand — at the exact values. The
  dimension numbers enter only through four facts about where the operand indices come from (rows of both
  operands from the contraction position, the left operand's columns from the result's rows, the right operand's
  columns from the result's columns).
-/
import Idealize.ShloMosaic.Lib.ValueIdx
import Idealize.ShloMosaic.PureOps.Ideal.Laws

noncomputable section

namespace Cert.TransposedDot

open Idealize.ShloMosaic Idealize.ShloMosaic.ValueIdx

/-- Entry `(q, c)` of a product contracting the rows of both operands, into a zero accumulator, is
    `∑ k, lhs (k, q) * rhs (k, c)`. -/
theorem matmul_zero_apply {n K m : ℕ} {φ₁ φ₂ : FTy}
    (D : DotDims ⟨2, ![K, n]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (lhs : FVec Ideal ⟨2, ![K, n]⟩ φ₁) (rhs : FVec Ideal ⟨2, ![K, m]⟩ φ₂) (q : Fin n) (c : Fin m) :
    matmul D prec lhs rhs (constant ⟨2, ![n, m]⟩ .f32 0x00000000#32) (ix2 q c)
      = ∑ k : Fin K, lhs (ix2 k q) * rhs (ix2 k c) := by
  show FloatOps.matmul D prec lhs rhs (constant ⟨2, ![n, m]⟩ .f32 0x00000000#32) (ix2 q c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 q c) ((contrEquiv1 D K hr hs).symm k) = ix2 k q := funext fun a => Fin.ext (by
    match a with
    | ⟨0, _⟩ => exact (hl0 _ _).trans hk
    | ⟨1, _⟩ => exact hl1 _ _)
  have er : D.rhsIdx (ix2 q c) ((contrEquiv1 D K hr hs).symm k) = ix2 k c := funext fun a => Fin.ext (by
    match a with
    | ⟨0, _⟩ => exact (hr0 _ _).trans hk
    | ⟨1, _⟩ => exact hr1 _ _)
  rw [el, er]

end Cert.TransposedDot

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.KernelPayloadOps.lean ====
/-
  The vector operations of the attention block's body, read one entry at a time on the extended reals: a sum or a
  maximum along the rows of a matrix, a [512] vector regrouped as [32, 16] and back, a per-group statistic spread to
  every channel of its group and every token, a per-channel column spread along the tokens, and the three matrix
  products (weights times activations, queries against keys along the channels, values against attention rows along
  the keys), each as the sum the specification writes.
-/
import proofs.«105434_j74663711474018_2_alg».proof.Proof.Gen.KernelIdeal.Skeleton
import proofs.«105434_j74663711474018_2_alg».proof.Proof.Spec
import proofs.«105434_j74663711474018_2_alg».proof.Proof.LibMatmul
import proofs.«105434_j74663711474018_2_alg».proof.Proof.LibMatmulTN
import proofs.«105434_j74663711474018_2_alg».proof.Proof.LibMatmulNT
import proofs.«105434_j74663711474018_2_alg».proof.Proof.LibColumns
import Idealize.ShloMosaic.Lib.ValueLayout

noncomputable section

namespace Cert.KernelIdeal.KernelValue

open Idealize.ShloMosaic Idealize.ShloMosaic.ValueIdx
open Cert.KernelIdeal Cert.KernelIdeal.Gen Cert.Attn

/-! ## Words -/

/-- The word of minus infinity is the bottom of the extended reals. -/
theorem ninf_word : Ideal.ofBits .f32 0xFF800000#32 = (⊥ : EReal) := by simp [Ideal.ofBits, Ideal.ieee]

/-! ## Reductions along the rows of a matrix -/

/-- A sum along the rows of an [a, b] matrix, at row p, is the sum of the row's entries. -/
theorem rowSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) := by
  refine (Ideal.multiReduction_add_single v acc h hφ hacc (ix1 p)).trans ?_
  exact Finset.sum_congr rfl fun k _ => congrArg v (Cert.Columns.lift_row h p k)

/-- A maximum along the rows of an [a, b] matrix started from minus infinity, at row p, is the maximum of the row's
    entries folded from the bottom element. -/
theorem rowMax_apply {a b : ℕ} (v : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (p : Fin a) :
    multiReduction .maximumf [1] ⟨1, ![a]⟩ v 0xFF800000#32 h hφ hacc (ix1 p)
      = (Finset.univ : Finset (Fin b)).fold max (⊥ : EReal) (fun k => v (ix2 p k)) := by
  refine (Ideal.multiReduction_maximumf_single v _ h hφ hacc (ix1 p)).trans ?_
  have hf : (v ∘ h.lift (ix1 p)) = fun k : Fin b => v (ix2 p k) := funext fun k => congrArg v (Cert.Columns.lift_row h p k)
  show (Finset.univ : Finset (Fin b)).fold max (Ideal.ofBits .f32 0xFF800000#32) (v ∘ h.lift (ix1 p)) = _
  rw [ninf_word, hf]
  rfl

/-! ## The channels regrouped -/

/-- A [512] vector viewed as [32, 16] reads, at (g, j), the vector at channel 16·g + j. -/
theorem split_apply {α : Type} (v : S512.Idx → α) (h : S512.ShapeCasts S32x16) (g : Fin 32) (j : Fin 16) :
    shapeCast S32x16 v h (ix2 g j) = v (ix1 (chan g j)) :=
  shapeCast_apply v h _ _ (by
    rw [Shape.rowMajor_val_one, Shape.rowMajor_val_two]
    rfl)

/-- A [32, 16] array flattened to [512] reads, at channel c, the array at (c / 16, c % 16). -/
theorem flat_apply {α : Type} (v : S32x16.Idx → α) (h : S32x16.ShapeCasts S512) (c : Fin 512) :
    shapeCast S512 v h (ix1 c) = v (ix2 (grp c) (⟨c.val % 16, Nat.mod_lt _ (by decide)⟩ : Fin 16)) :=
  shapeCast_apply v h _ _ (by
    rw [Shape.rowMajor_val_one, Shape.rowMajor_val_two]
    show c.val / 16 * 16 + c.val % 16 = c.val
    omega)

/-! ## The body's stages as vector functions -/

/-- The sum over the tokens, per channel. -/
def laneSum (v : FVec Ideal S512x1024 .f32) : FVec Ideal S512 .f32 :=
  multiReduction .add [1] S512 v 0x00000000#32 reduces_S512x1024_S512 (.inl rfl) rfl

/-- The sum over the 16 channels of a group, per group. -/
def groupSum (s : FVec Ideal S512 .f32) : FVec Ideal S32 .f32 :=
  multiReduction .add [1] S32 (shapeCast S32x16 s shapeCasts_S512_S32x16) 0x00000000#32 reduces_S32x16_S32 (.inl rfl) rfl

/-- A per-group statistic spread to every channel of the group and every token. -/
def perChannel (s : FVec Ideal S32 .f32) : FVec Ideal S512x1024 .f32 :=
  broadcastTo S512x1024 (shapeCast S512x1 (shapeCast S512 (broadcastTo S32x16 (shapeCast S32x1 (shapeCast S32x1 s shapeCasts_S32_S32x1) shapeCasts_S32x1_S32x1) broadcasts_S32x1_S32x16) shapeCasts_S32x16_S512) shapeCasts_S512_S512x1) broadcasts_S512x1_S512x1024

/-- A per-channel vector spread along the tokens. -/
def column (b : Vec Ideal S512 .f32) : FVec Ideal S512x1024 .f32 :=
  broadcastTo S512x1024 (shapeCast S512x1 b shapeCasts_S512_S512x1) broadcasts_S512x1_S512x1024

theorem laneSum_apply (v : FVec Ideal S512x1024 .f32) (c : Fin 512) : laneSum v (ix1 c) = ∑ n : Fin 1024, v (ix2 c n) :=
  rowSum_apply v _ _ _ _ c

theorem groupSum_apply (s : FVec Ideal S512 .f32) (g : Fin 32) : groupSum s (ix1 g) = ∑ j : Fin 16, s (ix1 (chan g j)) :=
  (rowSum_apply (shapeCast S32x16 s shapeCasts_S512_S32x16) _ _ _ _ g).trans
    (Finset.sum_congr rfl fun j _ => split_apply s _ g j)

theorem perChannel_apply (s : FVec Ideal S32 .f32) (c : Fin 512) (n : Fin 1024) : perChannel s (ix2 c n) = s (ix1 (grp c)) := by
  unfold perChannel
  refine (Cert.Columns.broadcastTo_a1_ab_apply _ _ c n).trans ?_
  refine (Cert.Columns.shapeCast_a_a1_apply _ _ c 0).trans ?_
  refine (flat_apply _ _ c).trans ?_
  refine (Cert.Columns.broadcastTo_a1_ab_apply _ _ (grp c) _).trans ?_
  rw [shapeCast_self]
  exact Cert.Columns.shapeCast_a_a1_apply _ _ (grp c) 0

theorem column_apply (b : Vec Ideal S512 .f32) (c : Fin 512) (n : Fin 1024) : column b (ix2 c n) = b (ix1 c) :=
  (Cert.Columns.broadcastTo_a1_ab_apply _ _ c n).trans (Cert.Columns.shapeCast_a_a1_apply _ _ c 0)

end Cert.KernelIdeal.KernelValue

end
-- ==== Proof.KernelPayloadNorm.lean ====
/-
  The normalisation stage of the body, read at a channel c and a token n: the block's one batch entry, normalised with
  group statistics taken from channel sums (the sum over the tokens, then over the 16 channels of the group, divided by
  the group size; the variance as the mean of the squares minus the squared mean), then the per-channel scale and shift.
-/
import proofs.«105434_j74663711474018_2_alg».proof.Proof.KernelPayloadOps

noncomputable section

namespace Cert.KernelIdeal.KernelValue

open Idealize.ShloMosaic Idealize.ShloMosaic.ValueIdx
open Cert.KernelIdeal Cert.KernelIdeal.Gen Cert.Attn

/-- The block's one batch entry as channels × tokens. -/
def entries (x0 : Vec Ideal S1x512x1024 .f32) : Fin 512 → Fin 1024 → EReal := fun c n => x0 (ix3 (0 : Fin 1) c n)
/-- A loaded [512] vector by channel. -/
def vec (v : Vec Ideal S512 .f32) : Fin 512 → EReal := fun c => v (ix1 c)
/-- A loaded [512, 512] matrix by row and column. -/
def mat (w : Vec Ideal S512x512 .bf16) : Fin 512 → Fin 512 → EReal := fun o c => w (ix2 o c)

/-- The loaded block with its unit axis dropped reads the batch entry. -/
theorem pay2_apply (x0 : Vec Ideal S1x512x1024 .f32) (c : Fin 512) (n : Fin 1024) : k0_pay2 x0 (ix2 c n) = entries x0 c n :=
  shapeCast_1ab_ab_apply x0 shapeCasts_S1x512x1024_S512x1024 c n

/-- The group means, as the body computes them. -/
def meanV (x : FVec Ideal S512x1024 .f32) : FVec Ideal S32 .f32 :=
  divf (groupSum (laneSum x)) (broadcast S32 (Scalar.ofBits .f32 0x46800000#32))

/-- The groups' reciprocal standard deviations, as the body computes them. -/
def rstdV (x : FVec Ideal S512x1024 .f32) : FVec Ideal S32 .f32 :=
  rsqrt (addf (subf (divf (groupSum (laneSum (mulf x x))) (broadcast S32 (Scalar.ofBits .f32 0x46800000#32))) (mulf (meanV x) (meanV x)))
    (broadcast S32 (Scalar.ofBits .f32 0x3727C5AC#32)))

/-- The normalised, scaled and shifted array, as the body computes it. -/
def normV (x : FVec Ideal S512x1024 .f32) (g1 g2 : Vec Ideal S512 .f32) : FVec Ideal S512x1024 .bf16 :=
  truncf .bf16 (addf (mulf (mulf (subf x (perChannel (meanV x))) (perChannel (rstdV x))) (column g1)) (column g2)) bitsLt_bf16_f32

/-- The printed payload is that composition. -/
theorem pay3_eq (x0 : Vec Ideal S1x512x1024 .f32) (x32 x36 : Vec Ideal S512 .f32) :
    k0_pay3 x0 x32 x36 = normV (k0_pay2 x0) x32 x36 := rfl

section Stats

variable (x : FVec Ideal S512x1024 .f32) (X : Fin 512 → Fin 1024 → EReal) (hx : ∀ c n, x (ix2 c n) = X c n)

include hx in
/-- The two-step sum of a group is the specification's channel-by-channel sum. -/
theorem sumV_apply (g : Fin 32) : groupSum (laneSum x) (ix1 g) = sumK X g := by
  rw [groupSum_apply]
  unfold sumK
  exact Finset.sum_congr rfl fun j _ => (laneSum_apply x _).trans (Finset.sum_congr rfl fun n _ => hx _ n)

include hx in
theorem meanV_apply (g : Fin 32) : meanV x (ix1 g) = meanK X g := by
  show Ideal.div (groupSum (laneSum x) (ix1 g)) count = _
  rw [sumV_apply x X hx g]
  rfl

include hx in
theorem rstdV_apply (g : Fin 32) : rstdV x (ix1 g) = rstdK X g := by
  have hx2 : ∀ c n, mulf x x (ix2 c n) = X c n * X c n := fun c n => by
    show x (ix2 c n) * x (ix2 c n) = _
    rw [hx]
  show Ideal.rsqrt ((Ideal.div (groupSum (laneSum (mulf x x)) (ix1 g)) count - meanV x (ix1 g) * meanV x (ix1 g)) + eps) = _
  rw [sumV_apply (mulf x x) _ hx2 g, meanV_apply x X hx g]
  rfl

include hx in
theorem normV_apply (g1 g2 : Vec Ideal S512 .f32) (c : Fin 512) (n : Fin 1024) :
    normV x g1 g2 (ix2 c n) = normK X (vec g1) (vec g2) c n := by
  show (x (ix2 c n) - perChannel (meanV x) (ix2 c n)) * perChannel (rstdV x) (ix2 c n) * column g1 (ix2 c n) + column g2 (ix2 c n) = _
  rw [perChannel_apply, perChannel_apply, column_apply, column_apply, meanV_apply x X hx, rstdV_apply x X hx, hx]
  rfl

end Stats

/-- The normalisation payload at (c, n) is the specification's normalisation of the block's batch entry. -/
theorem pay3_apply (x0 : Vec Ideal S1x512x1024 .f32) (x32 x36 : Vec Ideal S512 .f32) (c : Fin 512) (n : Fin 1024) :
    k0_pay3 x0 x32 x36 (ix2 c n) = normK (entries x0) (vec x32) (vec x36) c n := by
  rw [pay3_eq]
  exact normV_apply (k0_pay2 x0) (entries x0) (pay2_apply x0) x32 x36 c n

end Cert.KernelIdeal.KernelValue

end
-- ==== Proof.KernelPayloadAttn.lean ====
/-
  The attention stage of the body, read one entry at a time: a weight matrix times the activations plus a per-channel
  bias; the scores, contracting the channels of queries and keys, scaled; the row softmax (subtract the row's maximum,
  exponentiate, divide by the row's sum); the values against the attention rows, contracting the keys; and the body's
  second large payload as the output projection of all of these.
-/
import proofs.«105434_j74663711474018_2_alg».proof.Proof.KernelPayloadNorm

noncomputable section

namespace Cert.KernelIdeal.KernelValue

open Idealize.ShloMosaic Idealize.ShloMosaic.ValueIdx
open Cert.KernelIdeal Cert.KernelIdeal.Gen Cert.Attn

/-! ## The stages as vector functions -/

/-- A [512, 512] weight matrix times a [512, 1024] array. -/
def projV (W : Vec Ideal S512x512 .bf16) (H : FVec Ideal S512x1024 .bf16) : FVec Ideal S512x1024 .f32 :=
  matmul dot_S512x512_S512x1024_S512x1024_1_0_0_1_n_n none
    (shapeCast S512x512 W shapeCasts_S512x512_S512x512 : FVec Ideal S512x512 .bf16) H (constant S512x1024 .f32 0x00000000#32)

/-- The scaled scores: queries against keys along the channels. -/
def scoreV (q k : FVec Ideal S512x1024 .bf16) : FVec Ideal S1024x1024 .f32 :=
  mulf (matmul dot_S512x1024_S512x1024_S1024x1024_0_0_1_1_n_n none q k (constant S1024x1024 .f32 0x00000000#32))
    (broadcast S1024x1024 (Scalar.ofBits .f32 0x3D3504F3#32))

/-- A per-row value spread along the row. -/
def rowCol (r : FVec Ideal S1024 .f32) : FVec Ideal S1024x1024 .f32 :=
  broadcastTo S1024x1024 (shapeCast S1024x1 r shapeCasts_S1024_S1024x1) broadcasts_S1024x1_S1024x1024

/-- The maximum of each row, started from minus infinity. -/
def rowMaxV (s : FVec Ideal S1024x1024 .f32) : FVec Ideal S1024 .f32 :=
  multiReduction .maximumf [1] S1024 s 0xFF800000#32 reduces_S1024x1024_S1024 (.inl rfl) rfl

/-- The sum of each row. -/
def rowSumV (e : FVec Ideal S1024x1024 .f32) : FVec Ideal S1024 .f32 :=
  multiReduction .add [1] S1024 e 0x00000000#32 reduces_S1024x1024_S1024 (.inl rfl) rfl

/-- The exponentials of the scores less their row maxima. -/
def expV (s : FVec Ideal S1024x1024 .f32) : FVec Ideal S1024x1024 .f32 :=
  exp (subf s (rowCol (rowMaxV s)))

/-- The row softmax. -/
def softV (s : FVec Ideal S1024x1024 .f32) : FVec Ideal S1024x1024 .f32 :=
  divf (expV s) (rowCol (rowSumV (expV s)))

/-- The values against the attention rows, along the keys. -/
def mixV (v : FVec Ideal S512x1024 .bf16) (a : FVec Ideal S1024x1024 .bf16) : FVec Ideal S512x1024 .f32 :=
  matmul dot_S512x1024_S1024x1024_S512x1024_1_1_0_0_n_n none v a (constant S512x1024 .f32 0x00000000#32)

/-- The printed query product is a weight product of the normalised array. -/
theorem pay4_eq (x0 : Vec Ideal S1x512x1024 .f32) (x32 x36 : Vec Ideal S512 .f32) (x41 : Vec Ideal S512x512 .bf16) :
    k0_pay4 x0 x32 x36 x41 = projV x41 (k0_pay3 x0 x32 x36) := rfl

/-- The printed attention payload is the composition of the stages. -/
theorem pay5_eq (v40 : FVec Ideal S512x1024 .bf16) (v43 : FVec Ideal S512x1024 .f32) (v44 : Vec Ideal S512 .f32)
    (v48 : Vec Ideal S512x512 .bf16) (v51 : Vec Ideal S512 .f32) (v55 : Vec Ideal S512x512 .bf16) (v58 : Vec Ideal S512 .f32)
    (v80 : Vec Ideal S512x512 .bf16) :
    k0_pay5 v40 v43 v44 v48 v51 v55 v58 v80
      = projV v80 (truncf .bf16 (mixV (truncf .bf16 (addf (projV v55 v40) (column v58)) bitsLt_bf16_f32)
          (truncf .bf16 (softV (scoreV (truncf .bf16 (addf v43 (column v44)) bitsLt_bf16_f32)
            (truncf .bf16 (addf (projV v48 v40) (column v51)) bitsLt_bf16_f32))) bitsLt_bf16_f32)) bitsLt_bf16_f32) := rfl

/-- The printed bias payload is the bias spread along the tokens. -/
theorem pay6_eq (v83 : Vec Ideal S512 .f32) : k0_pay6 v83 = column v83 := rfl

/-! ## Each stage at an entry -/

theorem projV_apply (W : Vec Ideal S512x512 .bf16) (H : FVec Ideal S512x1024 .bf16) (o : Fin 512) (n : Fin 1024) :
    projV W H (ix2 o n) = ∑ c : Fin 512, W (ix2 o c) * H (ix2 c n) := by
  unfold projV
  rw [shapeCast_self]
  exact Cert.PlainDot.matmul_zero_apply dot_S512x512_S512x1024_S512x1024_1_0_0_1_n_n none rfl rfl
    (fun _ _ => rfl) (fun i q => dot_S512x512_S512x1024_S512x1024_1_0_0_1_n_n.lhsIdx_val_of_single rfl i q)
    (fun i q => dot_S512x512_S512x1024_S512x1024_1_0_0_1_n_n.rhsIdx_val_of_single rfl i q) (fun _ _ => rfl) W H o n

/-- A weight product plus its bias is the specification's projection. -/
theorem affine_apply (W : Vec Ideal S512x512 .bf16) (H : FVec Ideal S512x1024 .bf16) (b : Vec Ideal S512 .f32) (o : Fin 512) (n : Fin 1024) :
    addf (projV W H) (column b) (ix2 o n) = proj (mat W) (vec b) (fun c n => H (ix2 c n)) o n := by
  show projV W H (ix2 o n) + column b (ix2 o n) = _
  rw [projV_apply, column_apply]
  rfl

theorem scoreV_apply (q k : FVec Ideal S512x1024 .bf16) (n m : Fin 1024) :
    scoreV q k (ix2 n m) = score (fun c n => q (ix2 c n)) (fun c m => k (ix2 c m)) n m := by
  show matmul dot_S512x1024_S512x1024_S1024x1024_0_0_1_1_n_n none q k (constant S1024x1024 .f32 0x00000000#32) (ix2 n m) * scale = _
  rw [Cert.TransposedDot.matmul_zero_apply dot_S512x1024_S512x1024_S1024x1024_0_0_1_1_n_n none rfl rfl
    (fun i q => dot_S512x1024_S512x1024_S1024x1024_0_0_1_1_n_n.lhsIdx_val_of_single rfl i q) (fun _ _ => rfl)
    (fun i q => dot_S512x1024_S512x1024_S1024x1024_0_0_1_1_n_n.rhsIdx_val_of_single rfl i q) (fun _ _ => rfl) q k n m]
  rfl

theorem rowCol_apply (r : FVec Ideal S1024 .f32) (n m : Fin 1024) : rowCol r (ix2 n m) = r (ix1 n) :=
  (Cert.Columns.broadcastTo_a1_ab_apply _ _ n m).trans (Cert.Columns.shapeCast_a_a1_apply _ _ n 0)

theorem rowMaxV_apply (s : FVec Ideal S1024x1024 .f32) (n : Fin 1024) :
    rowMaxV s (ix1 n) = (Finset.univ : Finset (Fin 1024)).fold max (⊥ : EReal) (fun k => s (ix2 n k)) :=
  rowMax_apply s _ _ _ n

theorem rowSumV_apply (e : FVec Ideal S1024x1024 .f32) (n : Fin 1024) : rowSumV e (ix1 n) = ∑ k : Fin 1024, e (ix2 n k) :=
  rowSum_apply e _ _ _ _ n

section Soft

variable (s : FVec Ideal S1024x1024 .f32) (S : Fin 1024 → Fin 1024 → EReal) (hs : ∀ n m, s (ix2 n m) = S n m)

include hs in
theorem expV_apply (n m : Fin 1024) : expV s (ix2 n m) = expo S n m := by
  have hrow : (fun k : Fin 1024 => s (ix2 n k)) = S n := funext (hs n)
  show Ideal.exp (s (ix2 n m) - rowCol (rowMaxV s) (ix2 n m)) = _
  rw [rowCol_apply, rowMaxV_apply, hrow, hs]
  rfl

include hs in
theorem softV_apply (n m : Fin 1024) : softV s (ix2 n m) = soft S n m := by
  show Ideal.div (expV s (ix2 n m)) (rowCol (rowSumV (expV s)) (ix2 n m)) = _
  rw [rowCol_apply, rowSumV_apply, expV_apply s S hs]
  exact congrArg _ (Finset.sum_congr rfl fun m' _ => expV_apply s S hs n m')

end Soft

theorem mixV_apply (v : FVec Ideal S512x1024 .bf16) (a : FVec Ideal S1024x1024 .bf16) (c : Fin 512) (n : Fin 1024) :
    mixV v a (ix2 c n) = mix (fun c m => v (ix2 c m)) (fun n m => a (ix2 n m)) c n :=
  Cert.PlainDotNT.matmul_rows_rows_zero_apply dot_S512x1024_S1024x1024_S512x1024_1_1_0_0_n_n none rfl rfl
    (fun _ _ => rfl) (fun i q => dot_S512x1024_S1024x1024_S512x1024_1_1_0_0_n_n.lhsIdx_val_of_single rfl i q)
    (fun _ _ => rfl) (fun i q => dot_S512x1024_S1024x1024_S512x1024_1_1_0_0_n_n.rhsIdx_val_of_single rfl i q) v a c n

end Cert.KernelIdeal.KernelValue

end
-- ==== Proof.KernelPayload.lean ====
/-
  The body's stored block, read at channel c and token n, is the specification of its inputs: the batch entry itself
  plus the output projection of the attention over the normalised entry. Every stage was read at an entry in the
  modules below this one; here they are composed.
-/
import proofs.«105434_j74663711474018_2_alg».proof.Proof.KernelPayloadAttn

noncomputable section

namespace Cert.KernelIdeal.KernelValue

open Idealize.ShloMosaic Idealize.ShloMosaic.ValueIdx
open Cert.KernelIdeal Cert.KernelIdeal.Gen Cert.Attn

/-- The attention payload at (o, n): the output weights against the attention-weighted values, where the queries are
    the given query products plus their bias and keys and values are projections of the given normalised array. -/
theorem pay5_apply (v40 : FVec Ideal S512x1024 .bf16) (v43 : FVec Ideal S512x1024 .f32) (v44 : Vec Ideal S512 .f32)
    (v48 : Vec Ideal S512x512 .bf16) (v51 : Vec Ideal S512 .f32) (v55 : Vec Ideal S512x512 .bf16) (v58 : Vec Ideal S512 .f32)
    (v80 : Vec Ideal S512x512 .bf16) (o : Fin 512) (n : Fin 1024) :
    k0_pay5 v40 v43 v44 v48 v51 v55 v58 v80 (ix2 o n)
      = ∑ c : Fin 512, mat v80 o c * mix (proj (mat v55) (vec v58) (fun c n => v40 (ix2 c n)))
          (soft (score (fun o n => v43 (ix2 o n) + vec v44 o) (proj (mat v48) (vec v51) (fun c n => v40 (ix2 c n))))) c n := by
  rw [pay5_eq, projV_apply]
  refine Finset.sum_congr rfl fun c _ => congrArg (mat v80 o c * ·) ?_
  have hv : (fun c m => addf (projV v55 v40) (column v58) (ix2 c m)) = proj (mat v55) (vec v58) (fun c n => v40 (ix2 c n)) :=
    funext fun c => funext fun m => affine_apply v55 v40 v58 c m
  have hq : (fun c n => addf v43 (column v44) (ix2 c n)) = fun o n => v43 (ix2 o n) + vec v44 o :=
    funext fun o => funext fun n => by
      show v43 (ix2 o n) + column v44 (ix2 o n) = _
      rw [column_apply]
      rfl
  have hk : (fun c m => addf (projV v48 v40) (column v51) (ix2 c m)) = proj (mat v48) (vec v51) (fun c n => v40 (ix2 c n)) :=
    funext fun c => funext fun m => affine_apply v48 v40 v51 c m
  have ha : (fun n m => softV (scoreV (truncf .bf16 (addf v43 (column v44)) bitsLt_bf16_f32)
        (truncf .bf16 (addf (projV v48 v40) (column v51)) bitsLt_bf16_f32)) (ix2 n m))
      = soft (score (fun o n => v43 (ix2 o n) + vec v44 o) (proj (mat v48) (vec v51) (fun c n => v40 (ix2 c n)))) :=
    funext fun n => funext fun m => softV_apply _ _ (fun n m => by
      refine (scoreV_apply _ _ n m).trans ?_
      exact congrArg₂ (fun q k => score q k n m) hq hk) n m
  refine (mixV_apply _ _ c n).trans ?_
  exact congrArg₂ (fun f a => mix f a c n) hv ha

/-- The stored payload is the residual sum with its unit axis added back. -/
theorem pay1_eq (v1 v82 v85 : FVec Ideal S512x1024 .f32) :
    k0_pay1 v1 v82 v85 = shapeCast S1x512x1024 (addf v1 (addf v82 v85)) shapeCasts_S512x1024_S1x512x1024 := rfl

/-- THE STORED BLOCK at (u, c, n) is the specification at channel c and token n of the eleven loaded blocks. -/
theorem stored_apply (x0 : Vec Ideal S1x512x1024 .f32) (x1 x2 : Vec Ideal S512 .f32) (x3 : Vec Ideal S512x512 .bf16) (x4 : Vec Ideal S512 .f32)
    (x5 : Vec Ideal S512x512 .bf16) (x6 : Vec Ideal S512 .f32) (x7 : Vec Ideal S512x512 .bf16) (x8 : Vec Ideal S512 .f32)
    (x9 : Vec Ideal S512x512 .bf16) (x10 : Vec Ideal S512 .f32) (u : Fin 1) (c : Fin 512) (n : Fin 1024) :
    k0_pay1 (k0_pay2 x0) (k0_pay5 (k0_pay3 x0 x1 x2) (k0_pay4 x0 x1 x2 x3) x4 x5 x6 x7 x8 x9) (k0_pay6 x10) (ix3 u c n)
      = outK (entries x0) (vec x1) (vec x2) (mat x3) (vec x4) (mat x5) (vec x6) (mat x7) (vec x8) (mat x9) (vec x10) c n := by
  rw [pay1_eq]
  refine (shapeCast_ab_1ab_apply _ _ u c n).trans ?_
  show k0_pay2 x0 (ix2 c n) + (k0_pay5 (k0_pay3 x0 x1 x2) (k0_pay4 x0 x1 x2 x3) x4 x5 x6 x7 x8 x9 (ix2 c n) + k0_pay6 x10 (ix2 c n)) = _
  rw [pay2_apply, pay5_apply, pay6_eq, column_apply]
  have hH : (fun c n => k0_pay3 x0 x1 x2 (ix2 c n)) = normK (entries x0) (vec x1) (vec x2) :=
    funext fun c => funext fun n => pay3_apply x0 x1 x2 c n
  have hQ : (fun o n => k0_pay4 x0 x1 x2 x3 (ix2 o n) + vec x4 o) = proj (mat x3) (vec x4) (normK (entries x0) (vec x1) (vec x2)) :=
    funext fun o => funext fun n => by
      rw [pay4_eq, projV_apply]
      show (∑ c : Fin 512, x3 (ix2 o c) * k0_pay3 x0 x1 x2 (ix2 c n)) + vec x4 o = (∑ c : Fin 512, mat x3 o c * normK (entries x0) (vec x1) (vec x2) c n) + vec x4 o
      exact congrArg (· + vec x4 o) (Finset.sum_congr rfl fun c _ => congrArg (x3 (ix2 o c) * ·) (pay3_apply x0 x1 x2 c n))
  rw [hH, hQ]
  rfl

end Cert.KernelIdeal.KernelValue

end
-- ==== Proof.SpecArrays.lean ====
/-
  The arrays of the two programs as the specification's functions: a [32, 512, 32, 32] input at batch entry b is the
  [512] × [1024] array (c, n) ↦ x(b, c, n / 32, n % 32); a [512] vector and a [512, 512] matrix are read coordinate by
  coordinate. The whole result, entry (b, c, h, w), is the specification at channel c and token 32·h + w of batch entry b.
-/
import proofs.«105434_j74663711474018_2_alg».proof.Proof.Spec
import Idealize.ShloMosaic.Lib.ValueIdx

noncomputable section

namespace Cert.Attn

open Idealize.ShloMosaic Idealize.ShloMosaic.ValueIdx

abbrev A4 : Shape := ⟨4, ![32, 512, 32, 32]⟩
abbrev A1 : Shape := ⟨1, ![512]⟩
abbrev A2 : Shape := ⟨2, ![512, 512]⟩

/-- Batch entry b of the input, as channels × tokens. -/
def batchOf (x : A4.Idx → EReal) (b : Fin 32) : Fin 512 → Fin 1024 → EReal :=
  fun c n => x (ix4 b c (rowOf n) (colOf n))
def vecOf (v : A1.Idx → EReal) : Fin 512 → EReal := fun c => v (ix1 c)
def matOf (w : A2.Idx → EReal) : Fin 512 → Fin 512 → EReal := fun o c => w (ix2 o c)

/-- The whole result with the statistics taken channel by channel. -/
def resK (x : A4.Idx → EReal) (gw gb : A1.Idx → EReal) (wq : A2.Idx → EReal) (bq : A1.Idx → EReal)
    (wk : A2.Idx → EReal) (bk : A1.Idx → EReal) (wv : A2.Idx → EReal) (bv : A1.Idx → EReal)
    (wp : A2.Idx → EReal) (bp : A1.Idx → EReal) : A4.Idx → EReal :=
  fun i => outK (batchOf x (i 0)) (vecOf gw) (vecOf gb) (matOf wq) (vecOf bq) (matOf wk) (vecOf bk)
    (matOf wv) (vecOf bv) (matOf wp) (vecOf bp) (i 1) (tok (i 2) (i 3))

/-- The whole result with the statistics taken over the whole group at once. -/
def resR (x : A4.Idx → EReal) (gw gb : A1.Idx → EReal) (wq : A2.Idx → EReal) (bq : A1.Idx → EReal)
    (wk : A2.Idx → EReal) (bk : A1.Idx → EReal) (wv : A2.Idx → EReal) (bv : A1.Idx → EReal)
    (wp : A2.Idx → EReal) (bp : A1.Idx → EReal) : A4.Idx → EReal :=
  fun i => outR (batchOf x (i 0)) (vecOf gw) (vecOf gb) (matOf wq) (vecOf bq) (matOf wk) (vecOf bk)
    (matOf wv) (vecOf bv) (matOf wp) (vecOf bp) (i 1) (tok (i 2) (i 3))

theorem resK_apply (x : A4.Idx → EReal) (gw gb : A1.Idx → EReal) (wq : A2.Idx → EReal) (bq : A1.Idx → EReal)
    (wk : A2.Idx → EReal) (bk : A1.Idx → EReal) (wv : A2.Idx → EReal) (bv : A1.Idx → EReal)
    (wp : A2.Idx → EReal) (bp : A1.Idx → EReal) (b : Fin 32) (c : Fin 512) (h w : Fin 32) :
    resK x gw gb wq bq wk bk wv bv wp bp (ix4 b c h w)
      = outK (batchOf x b) (vecOf gw) (vecOf gb) (matOf wq) (vecOf bq) (matOf wk) (vecOf bk)
          (matOf wv) (vecOf bv) (matOf wp) (vecOf bp) c (tok h w) := rfl

theorem resR_apply (x : A4.Idx → EReal) (gw gb : A1.Idx → EReal) (wq : A2.Idx → EReal) (bq : A1.Idx → EReal)
    (wk : A2.Idx → EReal) (bk : A1.Idx → EReal) (wv : A2.Idx → EReal) (bv : A1.Idx → EReal)
    (wp : A2.Idx → EReal) (bp : A1.Idx → EReal) (b : Fin 32) (c : Fin 512) (h w : Fin 32) :
    resR x gw gb wq bq wk bk wv bv wp bp (ix4 b c h w)
      = outR (batchOf x b) (vecOf gw) (vecOf gb) (matOf wq) (vecOf bq) (matOf wk) (vecOf bk)
          (matOf wv) (vecOf bv) (matOf wp) (vecOf bp) c (tok h w) := rfl

end Cert.Attn

end
-- ==== Proof.KernelValue.lean ====
/-
  The kernel's program on the extended reals, its run read. Before the call the host reshapes the [32, 512, 32, 32] input to [32, 512, 1024]
  (entry (b, c, n) is the input at (b, c, n / 32, n % 32)) and converts the four weight matrices, which on the extended
  reals changes nothing. The call leaves the [32, 512, 1024] result whose entry (b, p, q) is the body's stored block of
  batch entry b at (0, p, q), that is the specification at channel p and token q. After the call the host reshapes the
  result back to [32, 512, 32, 32]: entry (b, c, h, w) is the specification at channel c and token 32·h + w of batch
  entry b. The eleven arguments end as launched.
-/
import proofs.«105434_j74663711474018_2_alg».proof.Proof.KernelBlocks
import proofs.«105434_j74663711474018_2_alg».proof.Proof.KernelPayload
import proofs.«105434_j74663711474018_2_alg».proof.Proof.SpecArrays

noncomputable section

open Idealize.ShloMosaic Idealize.ShloMosaic.TcCoe Idealize.SL.Sem
open Idealize.ShloMosaic.Pipeline (Dat)
open Idealize.ShloMosaic.ValueIdx

namespace Cert.KernelIdeal.KernelValue

open Cert.KernelIdeal Cert.KernelIdeal.Gen Cert.Attn

variable (m : (ℓ : Loc nD τ sig) → Buf (Elt Ideal) ℓ) (ρ : Dev nD → PrngReg)

/-! ## The arrays the call finds -/

/-- The call finds the reshaped input in the first window's array. -/
theorem V_v0 (c : Dev nD) : (V m c main_v0 : S32x512x1024.Idx → EReal)
    = shapeCast S32x512x1024 (m ((c : Thread nD τ).loc main_arg0) : S32x512x32x32.Idx → EReal) shapeCasts_S32x512x32x32_S32x512x1024 := by
  show StableHlo.after hostOps0 (fun b => m (c, b)) (Proc.devRef .tc main_v0) = _
  after_results
  rfl

/-- A converted weight matrix is the weight matrix: a change of float format is the identity on the extended reals. -/
theorem V_v1 (c : Dev nD) : (V m c main_v1 : S512x512.Idx → EReal) = (m ((c : Thread nD τ).loc main_arg3) : S512x512.Idx → EReal) := by
  show StableHlo.after hostOps0 (fun b => m (c, b)) (Proc.devRef .tc main_v1) = _
  after_results
  rfl

/-- A converted weight matrix is the weight matrix: a change of float format is the identity on the extended reals. -/
theorem V_v2 (c : Dev nD) : (V m c main_v2 : S512x512.Idx → EReal) = (m ((c : Thread nD τ).loc main_arg5) : S512x512.Idx → EReal) := by
  show StableHlo.after hostOps0 (fun b => m (c, b)) (Proc.devRef .tc main_v2) = _
  after_results
  rfl

/-- A converted weight matrix is the weight matrix: a change of float format is the identity on the extended reals. -/
theorem V_v3 (c : Dev nD) : (V m c main_v3 : S512x512.Idx → EReal) = (m ((c : Thread nD τ).loc main_arg7) : S512x512.Idx → EReal) := by
  show StableHlo.after hostOps0 (fun b => m (c, b)) (Proc.devRef .tc main_v3) = _
  after_results
  rfl

/-- A converted weight matrix is the weight matrix: a change of float format is the identity on the extended reals. -/
theorem V_v4 (c : Dev nD) : (V m c main_v4 : S512x512.Idx → EReal) = (m ((c : Thread nD τ).loc main_arg9) : S512x512.Idx → EReal) := by
  show StableHlo.after hostOps0 (fun b => m (c, b)) (Proc.devRef .tc main_v4) = _
  after_results
  rfl

/-! ## The reshapes read at an entry -/

/-- Batch entry b of the reshaped input, as channels × tokens, is batch entry b of the input. -/
theorem entries_blk0 (x : S32x512x32x32.Idx → EReal) (b : Fin 32) :
    entries (blk0 (shapeCast S32x512x1024 x shapeCasts_S32x512x32x32_S32x512x1024) b) = batchOf x b := by
  funext c n
  show shapeCast S32x512x1024 x shapeCasts_S32x512x32x32_S32x512x1024 (ix3 b c n) = x (ix4 b c (rowOf n) (colOf n))
  refine shapeCast_apply x _ _ _ ?_
  rw [Shape.rowMajor_val_four, Shape.rowMajor_val_three]
  show ((b.val * 512 + c.val) * 32 + n.val / 32) * 32 + n.val % 32 = (b.val * 512 + c.val) * 1024 + n.val
  omega

/-- The result reshaped back, as one function of the eleven arguments, is the specification's whole result. -/
theorem result_eq (x : S32x512x32x32.Idx → EReal) (gw gb : S512.Idx → EReal) (wq : S512x512.Idx → EReal) (bq : S512.Idx → EReal)
    (wk : S512x512.Idx → EReal) (bk : S512.Idx → EReal) (wv : S512x512.Idx → EReal) (bv : S512.Idx → EReal)
    (wp : S512x512.Idx → EReal) (bp : S512.Idx → EReal) :
    shapeCast S32x512x32x32 (GK (shapeCast S32x512x1024 x shapeCasts_S32x512x32x32_S32x512x1024) gw gb wq bq wk bk wv bv wp bp)
        shapeCasts_S32x512x1024_S32x512x32x32
      = resK x gw gb wq bq wk bk wv bv wp bp := by
  funext i
  obtain ⟨b, c, h, w, rfl⟩ : ∃ (b : Fin 32) (c : Fin 512) (h w : Fin 32), i = ix4 b c h w := ⟨i 0, i 1, i 2, i 3, eq_ix4 i⟩
  rw [resK_apply]
  refine (shapeCast_apply _ _ (ix4 b c h w) (ix3 b c (tok h w)) ?_).trans ?_
  · rw [Shape.rowMajor_val_four, Shape.rowMajor_val_three]
    show (b.val * 512 + c.val) * 1024 + (h.val * 32 + w.val) = ((b.val * 512 + c.val) * 32 + h.val) * 32 + w.val
    omega
  · rw [GK_apply]
    unfold payAt
    rw [stored_apply, entries_blk0]
    rfl

/-! ## The reshape after the call -/

/-- After the call the host's reshape leaves, in the result buffer, the call's result array reshaped. -/
theorem tail_v6 (c : Dev nD) :
    (Pipeline.afterTail₀ cfgs (dats m) 0 (V0 m) [hostOps1] c main_v6 : S32x512x32x32.Idx → EReal)
      = shapeCast S32x512x32x32 ((dats m 0 c).arrAt 11 cfg0.N : S32x512x1024.Idx → EReal) shapeCasts_S32x512x1024_S32x512x32x32 := by
  unfold Pipeline.afterTail₀
  show StableHlo.after hostOps1 _ (Proc.devRef .tc main_v6) = _
  after_results
  have e := Pipeline.withArrays_arr spec0 winFacts0.arr_inj c (V0 m c) (fun w => (dats m 0 c).arrAt w cfg0.N) 11
  funext i
  show shapeCast S32x512x32x32 (Pipeline.withArrays spec0 c (V0 m c) (fun w => (dats m 0 c).arrAt w cfg0.N) (Proc.devRef .tc (Pipeline.arrRef spec0 11))) shapeCasts_S32x512x1024_S32x512x32x32 i = _
  rw [e]

/-! ## The run -/

/-- Every weakly fair execution of the kernel's program on the extended reals terminates with the result buffer at the
    specification's whole result of the eleven arguments, and the arguments as launched. -/
theorem run : θ_run (defs (F := Ideal)) (onTc (τ := τ) (main (F := Ideal))) ⟨m, fun _ => 0, ρ⟩ fun r => ∀ c : Dev nD,
      r.2.mem ((c.tc : Thread nD τ).loc main_v6)
        = Cert.Attn.resK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨by
      refine ((h c).2 main_v6 (Pipeline.mem_restRefs_of main_v6 (by decide) (by decide))).trans ?_
      rw [tail_v6, final, V_v0, V_v1, V_v2, V_v3, V_v4, V_main_arg1, V_main_arg2, V_main_arg4, V_main_arg6, V_main_arg8, V_main_arg10]
      exact result_eq _ _ _ _ _ _ _ _ _ _ _,
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans ((((dats m) 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans ((((dats m) 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans ((((dats m) 0 c).arrAt_in 10 rfl _).trans ((A_eq m c 10).trans (V_main_arg10 m c)))⟩)
    (run_main m ρ)

end Cert.KernelIdeal.KernelValue

end
-- ==== Proof.RefRunList.lean ====
/-
  The reference program's host operations as lists: the whole program as one list, and the same operations cut
  where the program text is cut — the eight operations before the call of the variance function, that function's
  own twenty, the three of the selection function it calls, the fifty-one that follow in the first window, and
  the second window's four. The two called functions' lists are functions of their arguments and of the record of
  buffers one call names, as the functions themselves are.
-/
import proofs.«105434_j74663711474018_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's eighty-six operations in program order. The two called functions' operations stand where
    they are called, each over the buffers its call names: the group variance (twenty operations over the record
    `main_call0`, its operands the grouped input and the integer zero) and, inside it, the selection between the
    quotient and the not-a-number constant (three operations over `main_call0_call0`). -/
abbrev ops : List (HloOp τ sig (Elt F)) :=
  [ StableHlo.reshape main_arg0 main_v0 rfl shapeCasts_S32x512x32x32_S32x32x16x32x32,
    StableHlo.nullary main_cst (constant S_ .f32 0x00000000#32),
    StableHlo.binary main_v0 main_cst main_v1 ((fun x v => Host.reduceAdd x v reducesTo_S32x32x16x32x32_S32x32_d2_3_4 h_S_) : (⟨S32x32x16x32x32, .f32⟩ : BufTy).Contents (Elt F) → (⟨S_, .f32⟩ : BufTy).Contents (Elt F) → (⟨S32x32, .f32⟩ : BufTy).Contents (Elt F)),
    StableHlo.unary main_v1 main_v2 (broadcastInDim S32x32x1x1x1 ![0, 1] bcast_S32x32_S32x32x1x1x1_0_1 : (⟨S32x32, .f32⟩ : BufTy).Contents (Elt F) → (⟨S32x32x1x1x1, .f32⟩ : BufTy).Contents (Elt F)),
    StableHlo.nullary main_cst_0 (constant S_ .f32 0x46800000#32),
    StableHlo.unary main_cst_0 main_v3 (broadcastInDim S32x32x1x1x1 ![] bcast_S_S32x32x1x1x1 : (⟨S_, .f32⟩ : BufTy).Contents (Elt F) → (⟨S32x32x1x1x1, .f32⟩ : BufTy).Contents (Elt F)),
    StableHlo.binary main_v2 main_v3 main_v4 (Host.divf : (⟨S32x32x1x1x1, .f32⟩ : BufTy).Contents (Elt F) → (⟨S32x32x1x1x1, .f32⟩ : BufTy).Contents (Elt F) → (⟨S32x32x1x1x1, .f32⟩ : BufTy).Contents (Elt F)),
    StableHlo.nullary main_c (constantI S_ 32 0#32),
    TRef.nullary main_call0.cst (constant S_ .f32 0x00000000#32),
    TRef.binary (.of main_v0 : TRef sig ⟨S32x32x16x32x32, .f32⟩) main_call0.cst main_call0.v0 (fun x v => Host.reduceAdd x v reducesTo_S32x32x16x32x32_S32x32_d2_3_4 h_S_),
    TRef.unary main_call0.v0 main_call0.v1 (broadcastInDim S32x32x1x1x1 ![0, 1] bcast_S32x32_S32x32x1x1x1_0_1),
    TRef.nullary main_call0.cst_0 (constant S_ .f32 0x46800000#32),
    TRef.unary main_call0.cst_0 main_call0.v2 (broadcastInDim S32x32x1x1x1 ![] bcast_S_S32x32x1x1x1),
    TRef.binary main_call0.v1 main_call0.v2 main_call0.v3 Host.divf,
    TRef.unary main_call0.v3 main_call0.v4 (broadcastInDim S32x32x16x32x32 ![0, 1, 2, 3, 4] bcast_S32x32x1x1x1_S32x32x16x32x32_0_1_2_3_4),
    TRef.binary (.of main_v0 : TRef sig ⟨S32x32x16x32x32, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x32x16x32x32_S32x32_d2_3_4 h_S_),
    TRef.unary main_call0.v9 main_call0.v10 (broadcastInDim S32x32x1x1x1 ![0, 1] bcast_S32x32_S32x32x1x1x1_0_1),
    TRef.unary main_call0.v8 main_call0.v11 (broadcastInDim S32x32x1x1x1 ![] bcast_S_S32x32x1x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0_call0.v0 id,
    TRef.unary main_call0_call0.v0 main_call0_call0.v1 (broadcastInDim S32x32x1x1x1 ![] bcast_S_S32x32x1x1x1),
    TRef.ternary main_call0.v13 main_call0.v12 main_call0_call0.v1 main_call0_call0.v2 (fun p a b => select (broadcastInDim S32x32x1x1x1 ![] bcast_S_S32x32x1x1x1 p) a b),
    StableHlo.unary main_v4 main_v6 (broadcastInDim S32x32x16x32x32 ![0, 1, 2, 3, 4] bcast_S32x32x1x1x1_S32x32x16x32x32_0_1_2_3_4 : (⟨S32x32x1x1x1, .f32⟩ : BufTy).Contents (Elt F) → (⟨S32x32x16x32x32, .f32⟩ : BufTy).Contents (Elt F)),
    StableHlo.binary main_v0 main_v6 main_v7 (subf : (⟨S32x32x16x32x32, .f32⟩ : BufTy).Contents (Elt F) → (⟨S32x32x16x32x32, .f32⟩ : BufTy).Contents (Elt F) → (⟨S32x32x16x32x32, .f32⟩ : BufTy).Contents (Elt F)),
    StableHlo.nullary main_cst_1 (constant S_ .f32 0x3727C5AC#32),
    StableHlo.unary main_cst_1 main_v8 (broadcastInDim S32x32x1x1x1 ![] bcast_S_S32x32x1x1x1 : (⟨S_, .f32⟩ : BufTy).Contents (Elt F) → (⟨S32x32x1x1x1, .f32⟩ : BufTy).Contents (Elt F)),
    StableHlo.binary main_v5 main_v8 main_v9 (addf : (⟨S32x32x1x1x1, .f32⟩ : BufTy).Contents (Elt F) → (⟨S32x32x1x1x1, .f32⟩ : BufTy).Contents (Elt F) → (⟨S32x32x1x1x1, .f32⟩ : BufTy).Contents (Elt F)),
    StableHlo.unary main_v9 main_v10 (Host.rsqrt : (⟨S32x32x1x1x1, .f32⟩ : BufTy).Contents (Elt F) → (⟨S32x32x1x1x1, .f32⟩ : BufTy).Contents (Elt F)),
    StableHlo.unary main_v10 main_v11 (broadcastInDim S32x32x16x32x32 ![0, 1, 2, 3, 4] bcast_S32x32x1x1x1_S32x32x16x32x32_0_1_2_3_4 : (⟨S32x32x1x1x1, .f32⟩ : BufTy).Contents (Elt F) → (⟨S32x32x16x32x32, .f32⟩ : BufTy).Contents (Elt F)),
    StableHlo.binary main_v7 main_v11 main_v12 (mulf : (⟨S32x32x16x32x32, .f32⟩ : BufTy).Contents (Elt F) → (⟨S32x32x16x32x32, .f32⟩ : BufTy).Contents (Elt F) → (⟨S32x32x16x32x32, .f32⟩ : BufTy).Contents (Elt F)),
    StableHlo.reshape main_v12 main_v13 rfl shapeCasts_S32x32x16x32x32_S32x512x32x32,
    StableHlo.unary main_arg1 main_v14 (broadcastInDim S1x512x1x1 ![1] bcast_S512_S1x512x1x1_1 : (⟨S512, .f32⟩ : BufTy).Contents (Elt F) → (⟨S1x512x1x1, .f32⟩ : BufTy).Contents (Elt F)),
    StableHlo.unary main_v14 main_v15 (broadcastInDim S32x512x32x32 ![0, 1, 2, 3] bcast_S1x512x1x1_S32x512x32x32_0_1_2_3 : (⟨S1x512x1x1, .f32⟩ : BufTy).Contents (Elt F) → (⟨S32x512x32x32, .f32⟩ : BufTy).Contents (Elt F)),
    StableHlo.binary main_v13 main_v15 main_v16 (mulf : (⟨S32x512x32x32, .f32⟩ : BufTy).Contents (Elt F) → (⟨S32x512x32x32, .f32⟩ : BufTy).Contents (Elt F) → (⟨S32x512x32x32, .f32⟩ : BufTy).Contents (Elt F)),
    StableHlo.unary main_arg2 main_v17 (broadcastInDim S1x512x1x1 ![1] bcast_S512_S1x512x1x1_1 : (⟨S512, .f32⟩ : BufTy).Contents (Elt F) → (⟨S1x512x1x1, .f32⟩ : BufTy).Contents (Elt F)),
    StableHlo.unary main_v17 main_v18 (broadcastInDim S32x512x32x32 ![0, 1, 2, 3] bcast_S1x512x1x1_S32x512x32x32_0_1_2_3 : (⟨S1x512x1x1, .f32⟩ : BufTy).Contents (Elt F) → (⟨S32x512x32x32, .f32⟩ : BufTy).Contents (Elt F)),
    StableHlo.binary main_v16 main_v18 main_v19 (addf : (⟨S32x512x32x32, .f32⟩ : BufTy).Contents (Elt F) → (⟨S32x512x32x32, .f32⟩ : BufTy).Contents (Elt F) → (⟨S32x512x32x32, .f32⟩ : BufTy).Contents (Elt F)),
    StableHlo.unary main_v19 main_v20 ((transpose S32x32x32x512 [0, 2, 3, 1] · transposes_S32x512x32x32_S32x32x32x512_0_2_3_1) : (⟨S32x512x32x32, .f32⟩ : BufTy).Contents (Elt F) → (⟨S32x32x32x512, .f32⟩ : BufTy).Contents (Elt F)),
    StableHlo.reshape main_v20 main_v21 rfl shapeCasts_S32x32x32x512_S32x1024x512,
    StableHlo.binary main_v21 main_arg3 main_v22 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg4 main_v23 (broadcastInDim S1x1x512 ![2] bcast_S512_S1x1x512_2 : (⟨S512, .f32⟩ : BufTy).Contents (Elt F) → (⟨S1x1x512, .f32⟩ : BufTy).Contents (Elt F)),
    StableHlo.unary main_v23 main_v24 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v22 main_v24 main_v25 (addf : (⟨S32x1024x512, .f32⟩ : BufTy).Contents (Elt F) → (⟨S32x1024x512, .f32⟩ : BufTy).Contents (Elt F) → (⟨S32x1024x512, .f32⟩ : BufTy).Contents (Elt F)),
    StableHlo.binary main_v21 main_arg5 main_v26 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg6 main_v27 (broadcastInDim S1x1x512 ![2] bcast_S512_S1x1x512_2 : (⟨S512, .f32⟩ : BufTy).Contents (Elt F) → (⟨S1x1x512, .f32⟩ : BufTy).Contents (Elt F)),
    StableHlo.unary main_v27 main_v28 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v26 main_v28 main_v29 (addf : (⟨S32x1024x512, .f32⟩ : BufTy).Contents (Elt F) → (⟨S32x1024x512, .f32⟩ : BufTy).Contents (Elt F) → (⟨S32x1024x512, .f32⟩ : BufTy).Contents (Elt F)),
    StableHlo.binary main_v21 main_arg7 main_v30 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg8 main_v31 (broadcastInDim S1x1x512 ![2] bcast_S512_S1x1x512_2 : (⟨S512, .f32⟩ : BufTy).Contents (Elt F) → (⟨S1x1x512, .f32⟩ : BufTy).Contents (Elt F)),
    StableHlo.unary main_v31 main_v32 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v30 main_v32 main_v33 (addf : (⟨S32x1024x512, .f32⟩ : BufTy).Contents (Elt F) → (⟨S32x1024x512, .f32⟩ : BufTy).Contents (Elt F) → (⟨S32x1024x512, .f32⟩ : BufTy).Contents (Elt F)),
    StableHlo.binary main_v25 main_v29 main_v34 ((fun l r => Host.dotGeneral dot_S32x1024x512_S32x1024x512_S32x1024x1024_2_2_1_1_0_0 none l r) : (⟨S32x1024x512, .f32⟩ : BufTy).Contents (Elt F) → (⟨S32x1024x512, .f32⟩ : BufTy).Contents (Elt F) → (⟨S32x1024x1024, .f32⟩ : BufTy).Contents (Elt F)),
    StableHlo.nullary main_cst_2 (constant S_ .f32 0x3D3504F3#32),
    StableHlo.unary main_cst_2 main_v35 (broadcastInDim S32x1024x1024 ![] bcast_S_S32x1024x1024 : (⟨S_, .f32⟩ : BufTy).Contents (Elt F) → (⟨S32x1024x1024, .f32⟩ : BufTy).Contents (Elt F)),
    StableHlo.binary main_v34 main_v35 main_v36 (mulf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_3 (constant S_ .f32 0xFF800000#32),
    StableHlo.binary main_v36 main_cst_3 main_v37 ((fun x v => Host.reduce FloatOps.maximumf x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    StableHlo.nullary main_cst_4 (constant S_ .f32 0xFF800000#32),
    StableHlo.unary main_cst_4 main_v38 (broadcastInDim S32x1024 ![] bcast_S_S32x1024 : (⟨S_, .f32⟩ : BufTy).Contents (Elt F) → (⟨S32x1024, .f32⟩ : BufTy).Contents (Elt F)),
    StableHlo.binary main_v38 main_v37 main_v39 (maximumf : (⟨S32x1024, .f32⟩ : BufTy).Contents (Elt F) → (⟨S32x1024, .f32⟩ : BufTy).Contents (Elt F) → (⟨S32x1024, .f32⟩ : BufTy).Contents (Elt F)),
    StableHlo.unary main_v39 main_v40 (broadcastInDim S32x1024x1 ![0, 1] bcast_S32x1024_S32x1024x1_0_1 : (⟨S32x1024, .f32⟩ : BufTy).Contents (Elt F) → (⟨S32x1024x1, .f32⟩ : BufTy).Contents (Elt F)),
    StableHlo.unary main_v40 main_v41 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    StableHlo.binary main_v36 main_v41 main_v42 (subf : (⟨S32x1024x1024, .f32⟩ : BufTy).Contents (Elt F) → (⟨S32x1024x1024, .f32⟩ : BufTy).Contents (Elt F) → (⟨S32x1024x1024, .f32⟩ : BufTy).Contents (Elt F)),
    StableHlo.unary main_v42 main_v43 (Host.exp : (⟨S32x1024x1024, .f32⟩ : BufTy).Contents (Elt F) → (⟨S32x1024x1024, .f32⟩ : BufTy).Contents (Elt F)),
    StableHlo.nullary main_cst_5 (constant S_ .f32 0x00000000#32),
    StableHlo.binary main_v43 main_cst_5 main_v44 ((fun x v => Host.reduceAdd x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    StableHlo.unary main_v44 main_v45 (broadcastInDim S32x1024x1 ![0, 1] bcast_S32x1024_S32x1024x1_0_1 : (⟨S32x1024, .f32⟩ : BufTy).Contents (Elt F) → (⟨S32x1024x1, .f32⟩ : BufTy).Contents (Elt F)),
    StableHlo.unary main_v45 main_v46 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    StableHlo.binary main_v43 main_v46 main_v47 (Host.divf : (⟨S32x1024x1024, .f32⟩ : BufTy).Contents (Elt F) → (⟨S32x1024x1024, .f32⟩ : BufTy).Contents (Elt F) → (⟨S32x1024x1024, .f32⟩ : BufTy).Contents (Elt F)),
    StableHlo.binary main_v47 main_v33 main_v48 ((fun l r => Host.dotGeneral dot_S32x1024x1024_S32x1024x512_S32x1024x512_2_1_1_2_0_0 none l r) : (⟨S32x1024x1024, .f32⟩ : BufTy).Contents (Elt F) → (⟨S32x1024x512, .f32⟩ : BufTy).Contents (Elt F) → (⟨S32x1024x512, .f32⟩ : BufTy).Contents (Elt F)),
    StableHlo.binary main_v48 main_arg9 main_v49 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg10 main_v50 (broadcastInDim S1x1x512 ![2] bcast_S512_S1x1x512_2 : (⟨S512, .f32⟩ : BufTy).Contents (Elt F) → (⟨S1x1x512, .f32⟩ : BufTy).Contents (Elt F)),
    StableHlo.unary main_v50 main_v51 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v49 main_v51 main_v52 (addf : (⟨S32x1024x512, .f32⟩ : BufTy).Contents (Elt F) → (⟨S32x1024x512, .f32⟩ : BufTy).Contents (Elt F) → (⟨S32x1024x512, .f32⟩ : BufTy).Contents (Elt F)),
    StableHlo.reshape main_v52 main_v53 rfl shapeCasts_S32x1024x512_S32x32x32x512,
    StableHlo.unary main_v53 main_v54 ((transpose S32x512x32x32 [0, 3, 1, 2] · transposes_S32x32x32x512_S32x512x32x32_0_3_1_2) : (⟨S32x32x32x512, .f32⟩ : BufTy).Contents (Elt F) → (⟨S32x512x32x32, .f32⟩ : BufTy).Contents (Elt F)),
    StableHlo.binary main_arg0 main_v54 main_v55 (addf : (⟨S32x512x32x32, .f32⟩ : BufTy).Contents (Elt F) → (⟨S32x512x32x32, .f32⟩ : BufTy).Contents (Elt F) → (⟨S32x512x32x32, .f32⟩ : BufTy).Contents (Elt F)) ]

/-- The selection function's three operations over its arguments and one call's buffers. -/
abbrev whereOps (a0 : TRef sig ⟨S_, .i1⟩) (a1 : TRef sig ⟨S32x32x1x1x1, .f32⟩) (a2 : TRef sig ⟨S_, .f32⟩) (φ : fn_where.Bufs) :
    List (HloOp τ sig (Elt F)) :=
  [ TRef.unary a2 φ.v0 id,
    TRef.unary φ.v0 φ.v1 (broadcastInDim S32x32x1x1x1 ![] bcast_S_S32x32x1x1x1),
    TRef.ternary a0 a1 φ.v1 φ.v2 (fun p a b => select (broadcastInDim S32x32x1x1x1 ![] bcast_S_S32x32x1x1x1 p) a b) ]

/-- The variance function's own twenty operations over its arguments and one call's buffers. -/
abbrev varOps (a0 : TRef sig ⟨S32x32x16x32x32, .f32⟩) (a1 : TRef sig ⟨S_, .i32⟩) (φ : fn_var.Bufs) :
    List (HloOp τ sig (Elt F)) :=
  [ TRef.nullary φ.cst (constant S_ .f32 0x00000000#32),
    TRef.binary a0 φ.cst φ.v0 (fun x v => Host.reduceAdd x v reducesTo_S32x32x16x32x32_S32x32_d2_3_4 h_S_),
    TRef.unary φ.v0 φ.v1 (broadcastInDim S32x32x1x1x1 ![0, 1] bcast_S32x32_S32x32x1x1x1_0_1),
    TRef.nullary φ.cst_0 (constant S_ .f32 0x46800000#32),
    TRef.unary φ.cst_0 φ.v2 (broadcastInDim S32x32x1x1x1 ![] bcast_S_S32x32x1x1x1),
    TRef.binary φ.v1 φ.v2 φ.v3 Host.divf,
    TRef.unary φ.v3 φ.v4 (broadcastInDim S32x32x16x32x32 ![0, 1, 2, 3, 4] bcast_S32x32x1x1x1_S32x32x16x32x32_0_1_2_3_4),
    TRef.binary a0 φ.v4 φ.v5 subf,
    TRef.binary φ.v5 φ.v5 φ.v6 mulf,
    TRef.unary a1 φ.v7 (sitofp .f32),
    TRef.nullary φ.cst_1 (constant S_ .f32 0x46800000#32),
    TRef.binary φ.cst_1 φ.v7 φ.v8 subf,
    TRef.nullary φ.cst_2 (constant S_ .f32 0x00000000#32),
    TRef.binary φ.v6 φ.cst_2 φ.v9 (fun x v => Host.reduceAdd x v reducesTo_S32x32x16x32x32_S32x32_d2_3_4 h_S_),
    TRef.unary φ.v9 φ.v10 (broadcastInDim S32x32x1x1x1 ![0, 1] bcast_S32x32_S32x32x1x1x1_0_1),
    TRef.unary φ.v8 φ.v11 (broadcastInDim S32x32x1x1x1 ![] bcast_S_S32x32x1x1x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32) ]

/-- The eight operations before the call. -/
abbrev opsA : List (HloOp τ sig (Elt F)) :=
  [ StableHlo.reshape main_arg0 main_v0 rfl shapeCasts_S32x512x32x32_S32x32x16x32x32,
    StableHlo.nullary main_cst (constant S_ .f32 0x00000000#32),
    StableHlo.binary main_v0 main_cst main_v1 ((fun x v => Host.reduceAdd x v reducesTo_S32x32x16x32x32_S32x32_d2_3_4 h_S_) : (⟨S32x32x16x32x32, .f32⟩ : BufTy).Contents (Elt F) → (⟨S_, .f32⟩ : BufTy).Contents (Elt F) → (⟨S32x32, .f32⟩ : BufTy).Contents (Elt F)),
    StableHlo.unary main_v1 main_v2 (broadcastInDim S32x32x1x1x1 ![0, 1] bcast_S32x32_S32x32x1x1x1_0_1 : (⟨S32x32, .f32⟩ : BufTy).Contents (Elt F) → (⟨S32x32x1x1x1, .f32⟩ : BufTy).Contents (Elt F)),
    StableHlo.nullary main_cst_0 (constant S_ .f32 0x46800000#32),
    StableHlo.unary main_cst_0 main_v3 (broadcastInDim S32x32x1x1x1 ![] bcast_S_S32x32x1x1x1 : (⟨S_, .f32⟩ : BufTy).Contents (Elt F) → (⟨S32x32x1x1x1, .f32⟩ : BufTy).Contents (Elt F)),
    StableHlo.binary main_v2 main_v3 main_v4 (Host.divf : (⟨S32x32x1x1x1, .f32⟩ : BufTy).Contents (Elt F) → (⟨S32x32x1x1x1, .f32⟩ : BufTy).Contents (Elt F) → (⟨S32x32x1x1x1, .f32⟩ : BufTy).Contents (Elt F)),
    StableHlo.nullary main_c (constantI S_ 32 0#32) ]

/-- The fifty-one operations of the first window after the call. -/
abbrev opsB : List (HloOp τ sig (Elt F)) :=
  [ StableHlo.unary main_v4 main_v6 (broadcastInDim S32x32x16x32x32 ![0, 1, 2, 3, 4] bcast_S32x32x1x1x1_S32x32x16x32x32_0_1_2_3_4 : (⟨S32x32x1x1x1, .f32⟩ : BufTy).Contents (Elt F) → (⟨S32x32x16x32x32, .f32⟩ : BufTy).Contents (Elt F)),
    StableHlo.binary main_v0 main_v6 main_v7 (subf : (⟨S32x32x16x32x32, .f32⟩ : BufTy).Contents (Elt F) → (⟨S32x32x16x32x32, .f32⟩ : BufTy).Contents (Elt F) → (⟨S32x32x16x32x32, .f32⟩ : BufTy).Contents (Elt F)),
    StableHlo.nullary main_cst_1 (constant S_ .f32 0x3727C5AC#32),
    StableHlo.unary main_cst_1 main_v8 (broadcastInDim S32x32x1x1x1 ![] bcast_S_S32x32x1x1x1 : (⟨S_, .f32⟩ : BufTy).Contents (Elt F) → (⟨S32x32x1x1x1, .f32⟩ : BufTy).Contents (Elt F)),
    StableHlo.binary main_v5 main_v8 main_v9 (addf : (⟨S32x32x1x1x1, .f32⟩ : BufTy).Contents (Elt F) → (⟨S32x32x1x1x1, .f32⟩ : BufTy).Contents (Elt F) → (⟨S32x32x1x1x1, .f32⟩ : BufTy).Contents (Elt F)),
    StableHlo.unary main_v9 main_v10 (Host.rsqrt : (⟨S32x32x1x1x1, .f32⟩ : BufTy).Contents (Elt F) → (⟨S32x32x1x1x1, .f32⟩ : BufTy).Contents (Elt F)),
    StableHlo.unary main_v10 main_v11 (broadcastInDim S32x32x16x32x32 ![0, 1, 2, 3, 4] bcast_S32x32x1x1x1_S32x32x16x32x32_0_1_2_3_4 : (⟨S32x32x1x1x1, .f32⟩ : BufTy).Contents (Elt F) → (⟨S32x32x16x32x32, .f32⟩ : BufTy).Contents (Elt F)),
    StableHlo.binary main_v7 main_v11 main_v12 (mulf : (⟨S32x32x16x32x32, .f32⟩ : BufTy).Contents (Elt F) → (⟨S32x32x16x32x32, .f32⟩ : BufTy).Contents (Elt F) → (⟨S32x32x16x32x32, .f32⟩ : BufTy).Contents (Elt F)),
    StableHlo.reshape main_v12 main_v13 rfl shapeCasts_S32x32x16x32x32_S32x512x32x32,
    StableHlo.unary main_arg1 main_v14 (broadcastInDim S1x512x1x1 ![1] bcast_S512_S1x512x1x1_1 : (⟨S512, .f32⟩ : BufTy).Contents (Elt F) → (⟨S1x512x1x1, .f32⟩ : BufTy).Contents (Elt F)),
    StableHlo.unary main_v14 main_v15 (broadcastInDim S32x512x32x32 ![0, 1, 2, 3] bcast_S1x512x1x1_S32x512x32x32_0_1_2_3 : (⟨S1x512x1x1, .f32⟩ : BufTy).Contents (Elt F) → (⟨S32x512x32x32, .f32⟩ : BufTy).Contents (Elt F)),
    StableHlo.binary main_v13 main_v15 main_v16 (mulf : (⟨S32x512x32x32, .f32⟩ : BufTy).Contents (Elt F) → (⟨S32x512x32x32, .f32⟩ : BufTy).Contents (Elt F) → (⟨S32x512x32x32, .f32⟩ : BufTy).Contents (Elt F)),
    StableHlo.unary main_arg2 main_v17 (broadcastInDim S1x512x1x1 ![1] bcast_S512_S1x512x1x1_1 : (⟨S512, .f32⟩ : BufTy).Contents (Elt F) → (⟨S1x512x1x1, .f32⟩ : BufTy).Contents (Elt F)),
    StableHlo.unary main_v17 main_v18 (broadcastInDim S32x512x32x32 ![0, 1, 2, 3] bcast_S1x512x1x1_S32x512x32x32_0_1_2_3 : (⟨S1x512x1x1, .f32⟩ : BufTy).Contents (Elt F) → (⟨S32x512x32x32, .f32⟩ : BufTy).Contents (Elt F)),
    StableHlo.binary main_v16 main_v18 main_v19 (addf : (⟨S32x512x32x32, .f32⟩ : BufTy).Contents (Elt F) → (⟨S32x512x32x32, .f32⟩ : BufTy).Contents (Elt F) → (⟨S32x512x32x32, .f32⟩ : BufTy).Contents (Elt F)),
    StableHlo.unary main_v19 main_v20 ((transpose S32x32x32x512 [0, 2, 3, 1] · transposes_S32x512x32x32_S32x32x32x512_0_2_3_1) : (⟨S32x512x32x32, .f32⟩ : BufTy).Contents (Elt F) → (⟨S32x32x32x512, .f32⟩ : BufTy).Contents (Elt F)),
    StableHlo.reshape main_v20 main_v21 rfl shapeCasts_S32x32x32x512_S32x1024x512,
    StableHlo.binary main_v21 main_arg3 main_v22 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg4 main_v23 (broadcastInDim S1x1x512 ![2] bcast_S512_S1x1x512_2 : (⟨S512, .f32⟩ : BufTy).Contents (Elt F) → (⟨S1x1x512, .f32⟩ : BufTy).Contents (Elt F)),
    StableHlo.unary main_v23 main_v24 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v22 main_v24 main_v25 (addf : (⟨S32x1024x512, .f32⟩ : BufTy).Contents (Elt F) → (⟨S32x1024x512, .f32⟩ : BufTy).Contents (Elt F) → (⟨S32x1024x512, .f32⟩ : BufTy).Contents (Elt F)),
    StableHlo.binary main_v21 main_arg5 main_v26 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg6 main_v27 (broadcastInDim S1x1x512 ![2] bcast_S512_S1x1x512_2 : (⟨S512, .f32⟩ : BufTy).Contents (Elt F) → (⟨S1x1x512, .f32⟩ : BufTy).Contents (Elt F)),
    StableHlo.unary main_v27 main_v28 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v26 main_v28 main_v29 (addf : (⟨S32x1024x512, .f32⟩ : BufTy).Contents (Elt F) → (⟨S32x1024x512, .f32⟩ : BufTy).Contents (Elt F) → (⟨S32x1024x512, .f32⟩ : BufTy).Contents (Elt F)),
    StableHlo.binary main_v21 main_arg7 main_v30 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg8 main_v31 (broadcastInDim S1x1x512 ![2] bcast_S512_S1x1x512_2 : (⟨S512, .f32⟩ : BufTy).Contents (Elt F) → (⟨S1x1x512, .f32⟩ : BufTy).Contents (Elt F)),
    StableHlo.unary main_v31 main_v32 (broadcastInDim S32x1024x512 ![0, 1, 2] bcast_S1x1x512_S32x1024x512_0_1_2 : (⟨S1x1x512, .f32⟩ : BufTy).Contents (Elt F) → (⟨S32x1024x512, .f32⟩ : BufTy).Contents (Elt F)),
    StableHlo.binary main_v30 main_v32 main_v33 (addf : (⟨S32x1024x512, .f32⟩ : BufTy).Contents (Elt F) → (⟨S32x1024x512, .f32⟩ : BufTy).Contents (Elt F) → (⟨S32x1024x512, .f32⟩ : BufTy).Contents (Elt F)),
    StableHlo.binary main_v25 main_v29 main_v34 ((fun l r => Host.dotGeneral dot_S32x1024x512_S32x1024x512_S32x1024x1024_2_2_1_1_0_0 none l r) : (⟨S32x1024x512, .f32⟩ : BufTy).Contents (Elt F) → (⟨S32x1024x512, .f32⟩ : BufTy).Contents (Elt F) → (⟨S32x1024x1024, .f32⟩ : BufTy).Contents (Elt F)),
    StableHlo.nullary main_cst_2 (constant S_ .f32 0x3D3504F3#32),
    StableHlo.unary main_cst_2 main_v35 (broadcastInDim S32x1024x1024 ![] bcast_S_S32x1024x1024 : (⟨S_, .f32⟩ : BufTy).Contents (Elt F) → (⟨S32x1024x1024, .f32⟩ : BufTy).Contents (Elt F)),
    StableHlo.binary main_v34 main_v35 main_v36 (mulf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_3 (constant S_ .f32 0xFF800000#32),
    StableHlo.binary main_v36 main_cst_3 main_v37 ((fun x v => Host.reduce FloatOps.maximumf x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    StableHlo.nullary main_cst_4 (constant S_ .f32 0xFF800000#32),
    StableHlo.unary main_cst_4 main_v38 (broadcastInDim S32x1024 ![] bcast_S_S32x1024 : (⟨S_, .f32⟩ : BufTy).Contents (Elt F) → (⟨S32x1024, .f32⟩ : BufTy).Contents (Elt F)),
    StableHlo.binary main_v38 main_v37 main_v39 (maximumf : (⟨S32x1024, .f32⟩ : BufTy).Contents (Elt F) → (⟨S32x1024, .f32⟩ : BufTy).Contents (Elt F) → (⟨S32x1024, .f32⟩ : BufTy).Contents (Elt F)),
    StableHlo.unary main_v39 main_v40 (broadcastInDim S32x1024x1 ![0, 1] bcast_S32x1024_S32x1024x1_0_1 : (⟨S32x1024, .f32⟩ : BufTy).Contents (Elt F) → (⟨S32x1024x1, .f32⟩ : BufTy).Contents (Elt F)),
    StableHlo.unary main_v40 main_v41 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    StableHlo.binary main_v36 main_v41 main_v42 (subf : (⟨S32x1024x1024, .f32⟩ : BufTy).Contents (Elt F) → (⟨S32x1024x1024, .f32⟩ : BufTy).Contents (Elt F) → (⟨S32x1024x1024, .f32⟩ : BufTy).Contents (Elt F)),
    StableHlo.unary main_v42 main_v43 (Host.exp : (⟨S32x1024x1024, .f32⟩ : BufTy).Contents (Elt F) → (⟨S32x1024x1024, .f32⟩ : BufTy).Contents (Elt F)),
    StableHlo.nullary main_cst_5 (constant S_ .f32 0x00000000#32),
    StableHlo.binary main_v43 main_cst_5 main_v44 ((fun x v => Host.reduceAdd x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    StableHlo.unary main_v44 main_v45 (broadcastInDim S32x1024x1 ![0, 1] bcast_S32x1024_S32x1024x1_0_1 : (⟨S32x1024, .f32⟩ : BufTy).Contents (Elt F) → (⟨S32x1024x1, .f32⟩ : BufTy).Contents (Elt F)),
    StableHlo.unary main_v45 main_v46 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    StableHlo.binary main_v43 main_v46 main_v47 (Host.divf : (⟨S32x1024x1024, .f32⟩ : BufTy).Contents (Elt F) → (⟨S32x1024x1024, .f32⟩ : BufTy).Contents (Elt F) → (⟨S32x1024x1024, .f32⟩ : BufTy).Contents (Elt F)),
    StableHlo.binary main_v47 main_v33 main_v48 ((fun l r => Host.dotGeneral dot_S32x1024x1024_S32x1024x512_S32x1024x512_2_1_1_2_0_0 none l r) : (⟨S32x1024x1024, .f32⟩ : BufTy).Contents (Elt F) → (⟨S32x1024x512, .f32⟩ : BufTy).Contents (Elt F) → (⟨S32x1024x512, .f32⟩ : BufTy).Contents (Elt F)),
    StableHlo.binary main_v48 main_arg9 main_v49 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    StableHlo.unary main_arg10 main_v50 (broadcastInDim S1x1x512 ![2] bcast_S512_S1x1x512_2 : (⟨S512, .f32⟩ : BufTy).Contents (Elt F) → (⟨S1x1x512, .f32⟩ : BufTy).Contents (Elt F)),
    StableHlo.unary main_v50 main_v51 (broadcastInDim S32x1024x512 ![0, 1, 2] bcast_S1x1x512_S32x1024x512_0_1_2 : (⟨S1x1x512, .f32⟩ : BufTy).Contents (Elt F) → (⟨S32x1024x512, .f32⟩ : BufTy).Contents (Elt F)) ]

/-- The second window's four operations. -/
abbrev opsC : List (HloOp τ sig (Elt F)) :=
  [ StableHlo.binary main_v49 main_v51 main_v52 (addf : (⟨S32x1024x512, .f32⟩ : BufTy).Contents (Elt F) → (⟨S32x1024x512, .f32⟩ : BufTy).Contents (Elt F) → (⟨S32x1024x512, .f32⟩ : BufTy).Contents (Elt F)),
    StableHlo.reshape main_v52 main_v53 rfl shapeCasts_S32x1024x512_S32x32x32x512,
    StableHlo.unary main_v53 main_v54 ((transpose S32x512x32x32 [0, 3, 1, 2] · transposes_S32x32x32x512_S32x512x32x32_0_3_1_2) : (⟨S32x32x32x512, .f32⟩ : BufTy).Contents (Elt F) → (⟨S32x512x32x32, .f32⟩ : BufTy).Contents (Elt F)),
    StableHlo.binary main_arg0 main_v54 main_v55 (addf : (⟨S32x512x32x32, .f32⟩ : BufTy).Contents (Elt F) → (⟨S32x512x32x32, .f32⟩ : BufTy).Contents (Elt F) → (⟨S32x512x32x32, .f32⟩ : BufTy).Contents (Elt F)) ]

end Cert.ReferenceIdeal.RefRun

end
-- ==== Proof.RefRunMain.lean ====
/-
  The reference program is the straight line of its operations, and its run: the program text is two windows, the
  first calling the variance function, which calls the selection function; each body is the line of its own
  operations by unfolding, a line after a line is the concatenation run as one, and the concatenation of the
  pieces is the whole list. With no scoped buffer and no semaphore, every weakly fair execution then terminates
  with each buffer at the fold of the operations over the launch contents.
-/
import proofs.«105434_j74663711474018_2_alg».proof.Proof.RefRunList

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The selection function's body is the straight line of its three operations. -/
theorem where_eq (a0 : TRef sig ⟨S_, .i1⟩) (a1 : TRef sig ⟨S32x32x1x1x1, .f32⟩) (a2 : TRef sig ⟨S_, .f32⟩) (φ : fn_where.Bufs) :
    fn_where.body (F := F) a0 a1 a2 φ = seq (whereOps a0 a1 a2 φ) := rfl

/-- The variance function's body is its own twenty operations followed by the selection's three, the selection
    called on the comparison, the quotient and the not-a-number constant. -/
theorem var_eq (a0 : TRef sig ⟨S32x32x16x32x32, .f32⟩) (a1 : TRef sig ⟨S_, .i32⟩) (φ : fn_var.Bufs) :
    fn_var.body (F := F) a0 a1 φ = seq (varOps a0 a1 φ ++ whereOps φ.v13 φ.v12 φ.cst_4 φ.call0) := by
  rw [seq_append, ← where_eq]
  rfl

set_option maxRecDepth 8192 in
/-- The first window: eight operations, the call of the variance function on the grouped input and the integer
    zero, then fifty-one operations. -/
theorem part0_eq (c : Dev nD) :
    main_part0 (F := F) c = seq (opsA ++ (varOps (.of main_v0 : TRef sig ⟨S32x32x16x32x32, .f32⟩) (.of main_c : TRef sig ⟨S_, .i32⟩) main_call0
      ++ whereOps main_call0.v13 main_call0.v12 main_call0.cst_4 main_call0.call0) ++ opsB) := by
  rw [seq_append, seq_append, ← var_eq]
  rfl

/-- The second window: four operations and the return. -/
theorem part1_eq (c : Dev nD) : main_part1 (F := F) c = seq opsC := rfl

set_option maxRecDepth 8192 in
/-- The whole list is the pieces in order. -/
theorem ops_split : (ops : List (HloOp τ sig (Elt F))) = (opsA ++ (varOps (.of main_v0 : TRef sig ⟨S32x32x16x32x32, .f32⟩) (.of main_c : TRef sig ⟨S_, .i32⟩) main_call0
      ++ whereOps main_call0.v13 main_call0.v12 main_call0.cst_4 main_call0.call0) ++ opsB) ++ opsC := rfl

/-- The program is the straight line of its eighty-six operations: the two windows one after the other, a line
    after a line being the concatenation run as one. -/
theorem main_eq (c : Dev nD) : main (F := F) c = seq ops := by
  show (main_part0 (F := F) c >>= fun _ => main_part1 (F := F) c) = _
  rw [part0_eq, part1_eq, ← seq_append, ← ops_split]

/-- No TensorCore buffer of the program is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., reshape_bufs_sub .., unary_bufs_sub .., unary_bufs_sub ..,
    binary_bufs_sub .., unary_bufs_sub .., unary_bufs_sub .., binary_bufs_sub .., unary_bufs_sub .., reshape_bufs_sub ..,
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., nullary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., binary_bufs_sub .., unary_bufs_sub .., unary_bufs_sub .., binary_bufs_sub .., reshape_bufs_sub ..,
    unary_bufs_sub .., binary_bufs_sub ..⟩

/-- For any float values, from any memory with zero counters: every weakly fair execution of the program
    terminates, and every TensorCore buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's @main as a pure function of its eleven argument arrays, at the extended reals: GroupNorm over
  32 groups of 16 channels × 32 × 32 positions (mean; variance through the outlined variance function, whose guard
  "count − ddof > 0" selects the quotient; reciprocal square root), the per-channel affine map, the move to
  token-major layout [32, 1024, 512], three linear projections, scaled dot-product scores, a row softmax
  (maximum, exponential, sum, quotient), the weighted sum of values, the output projection, the move back to
  channel-major layout and the residual sum. Cut into the stages the later modules read one at a time.
-/
import proofs.«105434_j74663711474018_2_alg».proof.ReferenceIdeal
import proofs.«105434_j74663711474018_2_alg».proof.Proof.Gen.ReferenceIdeal
import Idealize.ShloMosaic.PureOps.Ideal

noncomputable section

namespace Cert.ReferenceIdeal.RefTerm

open Idealize.ShloMosaic Cert.ReferenceIdeal Cert.ReferenceIdeal.Gen

/-- The scalar zero the sums start from. -/
def zeroS : FVec Ideal S_ .f32 := constant (F := Ideal) S_ .f32 0x00000000#32

/-- The count 16384 = 16 · 32 · 32 spread over the statistics' shape. -/
def countB : FVec Ideal S32x32x1x1x1 .f32 :=
  broadcastInDim S32x32x1x1x1 ![] bcast_S_S32x32x1x1x1 (constant (F := Ideal) S_ .f32 0x46800000#32)

/-- The input viewed as [batch, group, channel in group, row, column]. -/
def grouped (x : FVec Ideal S32x512x32x32 .f32) : FVec Ideal S32x32x16x32x32 .f32 :=
  shapeCast S32x32x16x32x32 x shapeCasts_S32x512x32x32_S32x32x16x32x32

/-- The sum over a group's 16 · 32 · 32 entries, kept as [32, 32, 1, 1, 1]. -/
def groupSum (y : FVec Ideal S32x32x16x32x32 .f32) : FVec Ideal S32x32x1x1x1 .f32 :=
  broadcastInDim S32x32x1x1x1 ![0, 1] bcast_S32x32_S32x32x1x1x1_0_1
    (Host.reduceAdd (F := Ideal) y zeroS reducesTo_S32x32x16x32x32_S32x32_d2_3_4 h_S_)

/-- The group mean. -/
def refMean (x : FVec Ideal S32x512x32x32 .f32) : FVec Ideal S32x32x1x1x1 .f32 :=
  Host.divf (F := Ideal) (groupSum (grouped x)) countB

/-- A [32, 32, 1, 1, 1] statistic spread over its group's entries. -/
def spread (s : FVec Ideal S32x32x1x1x1 .f32) : FVec Ideal S32x32x16x32x32 .f32 :=
  broadcastInDim S32x32x16x32x32 ![0, 1, 2, 3, 4] bcast_S32x32x1x1x1_S32x32x16x32x32_0_1_2_3_4 s

/-- The deviations from the group mean. -/
def centered (x : FVec Ideal S32x512x32x32 .f32) : FVec Ideal S32x32x16x32x32 .f32 :=
  subf (grouped x) (spread (refMean x))

/-- The outlined variance function's divisor: the count minus the delta degrees of freedom, here the integer 0. -/
def divisor : FVec Ideal S_ .f32 :=
  subf (constant (F := Ideal) S_ .f32 0x46800000#32) (sitofp .f32 (constantI S_ 32 0#32))

/-- The outlined variance function on the grouped input: the mean of the squared deviations, guarded by
    "divisor > 0" (otherwise the not-a-number word). -/
def refVar (x : FVec Ideal S32x512x32x32 .f32) : FVec Ideal S32x32x1x1x1 .f32 :=
  select (broadcastInDim S32x32x1x1x1 ![] bcast_S_S32x32x1x1x1 (cmpf .ogt divisor zeroS))
    (Host.divf (F := Ideal) (groupSum (mulf (centered x) (centered x)))
      (broadcastInDim S32x32x1x1x1 ![] bcast_S_S32x32x1x1x1 divisor))
    (broadcastInDim S32x32x1x1x1 ![] bcast_S_S32x32x1x1x1 (constant (F := Ideal) S_ .f32 0x7FC00000#32))

/-- The reciprocal standard deviation: rsqrt (variance + ε). -/
def refRstd (x : FVec Ideal S32x512x32x32 .f32) : FVec Ideal S32x32x1x1x1 .f32 :=
  Host.rsqrt (F := Ideal) (addf (refVar x)
    (broadcastInDim S32x32x1x1x1 ![] bcast_S_S32x32x1x1x1 (constant (F := Ideal) S_ .f32 0x3727C5AC#32)))

/-- A per-channel vector spread over [32, 512, 32, 32]. -/
def perChannel (g : FVec Ideal S512 .f32) : FVec Ideal S32x512x32x32 .f32 :=
  broadcastInDim S32x512x32x32 ![0, 1, 2, 3] bcast_S1x512x1x1_S32x512x32x32_0_1_2_3
    (broadcastInDim S1x512x1x1 ![1] bcast_S512_S1x512x1x1_1 g)

/-- The normalised, affinely mapped input, channel-major [32, 512, 32, 32]. -/
def refNorm (x : FVec Ideal S32x512x32x32 .f32) (gw gb : FVec Ideal S512 .f32) : FVec Ideal S32x512x32x32 .f32 :=
  addf (mulf (shapeCast S32x512x32x32 (mulf (centered x) (spread (refRstd x))) shapeCasts_S32x32x16x32x32_S32x512x32x32)
    (perChannel gw)) (perChannel gb)

/-- Channel-major [32, 512, 32, 32] to token-major [32, 1024, 512]. -/
def tokens (h : FVec Ideal S32x512x32x32 .f32) : FVec Ideal S32x1024x512 .f32 :=
  shapeCast S32x1024x512 (transpose S32x32x32x512 [0, 2, 3, 1] h transposes_S32x512x32x32_S32x32x32x512_0_2_3_1)
    shapeCasts_S32x32x32x512_S32x1024x512

/-- A linear projection of token-major data: data · weightᵀ + bias. -/
def refProj (t : FVec Ideal S32x1024x512 .f32) (w : FVec Ideal S512x512 .f32) (b : FVec Ideal S512 .f32) :
    FVec Ideal S32x1024x512 .f32 :=
  addf (Host.dotGeneral (F := Ideal) dot_S32x1024x512_S512x512_S32x1024x512_2_1_01_0_n_n none t w)
    (broadcastInDim S32x1024x512 ![0, 1, 2] bcast_S1x1x512_S32x1024x512_0_1_2
      (broadcastInDim S1x1x512 ![2] bcast_S512_S1x1x512_2 b))

/-- Scaled scores: query · keyᵀ per batch, times 512^(-1/2) as the float word. -/
def refScores (q k : FVec Ideal S32x1024x512 .f32) : FVec Ideal S32x1024x1024 .f32 :=
  mulf (Host.dotGeneral (F := Ideal) dot_S32x1024x512_S32x1024x512_S32x1024x1024_2_2_1_1_0_0 none q k)
    (broadcastInDim S32x1024x1024 ![] bcast_S_S32x1024x1024 (constant (F := Ideal) S_ .f32 0x3D3504F3#32))

/-- A per-row statistic [32, 1024] spread along the row. -/
def alongRow (s : FVec Ideal S32x1024 .f32) : FVec Ideal S32x1024x1024 .f32 :=
  broadcastInDim S32x1024x1024 ![0, 1, 2] bcast_S32x1024x1_S32x1024x1024_0_1_2
    (broadcastInDim S32x1024x1 ![0, 1] bcast_S32x1024_S32x1024x1_0_1 s)

/-- The row maximum, from -∞ (and once more against -∞, as the softmax is written). -/
def refRowMax (s : FVec Ideal S32x1024x1024 .f32) : FVec Ideal S32x1024 .f32 :=
  maximumf (broadcastInDim S32x1024 ![] bcast_S_S32x1024 (constant (F := Ideal) S_ .f32 0xFF800000#32))
    (Host.reduce FloatOps.maximumf s (constant (F := Ideal) S_ .f32 0xFF800000#32)
      reducesTo_S32x1024x1024_S32x1024_d2 h_S_ : FVec Ideal S32x1024 .f32)

/-- The exponentials of the scores minus their row maximum. -/
def refExp (s : FVec Ideal S32x1024x1024 .f32) : FVec Ideal S32x1024x1024 .f32 :=
  Host.exp (F := Ideal) (subf s (alongRow (refRowMax s)))

/-- The row softmax. -/
def refSoft (s : FVec Ideal S32x1024x1024 .f32) : FVec Ideal S32x1024x1024 .f32 :=
  Host.divf (F := Ideal) (refExp s)
    (alongRow (Host.reduceAdd (F := Ideal) (refExp s) zeroS reducesTo_S32x1024x1024_S32x1024_d2 h_S_))

/-- The attention-weighted sum of the values. -/
def refMix (a : FVec Ideal S32x1024x1024 .f32) (v : FVec Ideal S32x1024x512 .f32) : FVec Ideal S32x1024x512 .f32 :=
  Host.dotGeneral (F := Ideal) dot_S32x1024x1024_S32x1024x512_S32x1024x512_2_1_1_2_0_0 none a v

/-- Token-major [32, 1024, 512] back to channel-major [32, 512, 32, 32]. -/
def channels (t : FVec Ideal S32x1024x512 .f32) : FVec Ideal S32x512x32x32 .f32 :=
  transpose S32x512x32x32 [0, 3, 1, 2] (shapeCast S32x32x32x512 t shapeCasts_S32x1024x512_S32x32x32x512)
    transposes_S32x32x32x512_S32x512x32x32_0_3_1_2

/-- The reference's result as one function of its arguments. -/
def refTerm (x : FVec Ideal S32x512x32x32 .f32) (gw gb : FVec Ideal S512 .f32)
    (wq : FVec Ideal S512x512 .f32) (bq : FVec Ideal S512 .f32) (wk : FVec Ideal S512x512 .f32) (bk : FVec Ideal S512 .f32)
    (wv : FVec Ideal S512x512 .f32) (bv : FVec Ideal S512 .f32) (wp : FVec Ideal S512x512 .f32) (bp : FVec Ideal S512 .f32) :
    FVec Ideal S32x512x32x32 .f32 :=
  addf x (channels (refProj
    (refMix (refSoft (refScores (refProj (tokens (refNorm x gw gb)) wq bq) (refProj (tokens (refNorm x gw gb)) wk bk)))
      (refProj (tokens (refNorm x gw gb)) wv bv)) wp bp))

end Cert.ReferenceIdeal.RefTerm

end
-- ==== Proof.RefRunOut.lean ====
/-
  What the reference's operations leave in the result buffer and in the argument buffers, as a fold over any
  starting contents: the result is `RefTerm.refTerm` of the eleven arguments' contents, and the arguments are
  untouched.
-/
import proofs.«105434_j74663711474018_2_alg».proof.Proof.RefRunList
import proofs.«105434_j74663711474018_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The result buffer after the operations, from any contents: each operation's result at its own buffer is its
    function of its operands' contents, and composing them from the last operation back to the arguments gives
    the stages of `RefTerm.refTerm` one for one — the reshapes as index-wise casts, the called functions'
    operations through the identity casts of their typed references. -/
theorem out_eq (V : Valuation τ sig (Elt Ideal)) :
    after (ops (F := Ideal)) V (main_v55 : DevRef τ sig) = RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

/-! No operation writes an argument: after the operations each argument buffer holds what it held. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

end Cert.ReferenceIdeal.RefRun

end
-- ==== Proof.RefRun.lean ====
/-
  The reference's run at the extended reals: the generic run of its operation list, read at the result buffer and
  at the eleven argument buffers.
-/
import proofs.«105434_j74663711474018_2_alg».proof.Proof.RefRunMain
import proofs.«105434_j74663711474018_2_alg».proof.Proof.RefRunOut

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From any memory with zero counters, every weakly fair execution of the reference at the extended reals
    terminates with the result buffer at `RefTerm.refTerm` of the eleven argument arrays and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
        = RefTerm.refTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v55).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_main m ρ)

end Cert.ReferenceIdeal.RefRun

end
-- ==== Proof.SpecConsts.lean ====
/-
  The float words the two programs spell whose VALUES the proof uses: 16384.0 (the group size) is the real 16384, the
  negative-infinity word is the bottom of the extended reals, and the zero word is 0. (ε and the score scale are carried
  as words: both programs hold the same ones.)
-/
import proofs.«105434_j74663711474018_2_alg».proof.Proof.Spec

noncomputable section

namespace Cert.Attn

open Idealize.ShloMosaic

theorem ofBits_count : Ideal.ofBits .f32 0x46800000#32 = ((16384 : ℝ) : EReal) := by
  simp [Ideal.ofBits, Ideal.ieee, -EReal.coe_mul]; norm_num

theorem count_eq : count = ((16384 : ℝ) : EReal) := ofBits_count

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

end Cert.Attn

end
-- ==== Proof.RefOpsLayout.lean ====
/-
  Layout operations of the reference read at an index given by coordinates: the two reshapes between the
  channel-major array [32, 512, 32, 32] and its grouped view [32, 32, 16, 32, 32] (channel 16·g + j of group g), the
  two moves between channel-major [32, 512, 32, 32] and token-major [32, 1024, 512] (token 32·row + column), and the
  broadcasts: a scalar to any shape, a [32, 32] statistic kept as [32, 32, 1, 1, 1] and spread over its group, a
  per-channel vector over [32, 512, 32, 32], a per-feature vector over [32, 1024, 512], a per-row statistic along its row.
  Every lemma is over a variable operand and a variable shape fact.
-/
import proofs.«105434_j74663711474018_2_alg».proof.ReferenceIdeal
import Idealize.ShloMosaic.Lib.ValueLayout

namespace Cert.ReferenceIdeal.RefOps

open Idealize.ShloMosaic Idealize.ShloMosaic.ValueIdx Cert.ReferenceIdeal

variable {α : Type}

/-! ## The grouped view -/

/-- The grouped view at (b, g, j, y, z) is the array at channel 16·g + j. -/
theorem grouped_apply (x : S32x512x32x32.Idx → α) (h : S32x512x32x32.ShapeCasts S32x32x16x32x32)
    (b g : Fin 32) (j : Fin 16) (y z : Fin 32) (c : Fin 512) (hc : c.val = g.val * 16 + j.val) :
    shapeCast S32x32x16x32x32 x h (ix5 b g j y z) = x (ix4 b c y z) :=
  shapeCast_apply x h _ _ (by
    rw [Shape.rowMajor_val_four, Shape.rowMajor_val_five]
    show ((b.val * 512 + c.val) * 32 + y.val) * 32 + z.val
      = (((b.val * 32 + g.val) * 16 + j.val) * 32 + y.val) * 32 + z.val
    omega)

/-- The grouped view flattened back: channel 16·g + j reads the grouped array at (g, j). -/
theorem ungrouped_apply (v : S32x32x16x32x32.Idx → α) (h : S32x32x16x32x32.ShapeCasts S32x512x32x32)
    (b : Fin 32) (c : Fin 512) (y z : Fin 32) (g : Fin 32) (j : Fin 16) (hc : c.val = g.val * 16 + j.val) :
    shapeCast S32x512x32x32 v h (ix4 b c y z) = v (ix5 b g j y z) :=
  shapeCast_apply v h _ _ (by
    rw [Shape.rowMajor_val_four, Shape.rowMajor_val_five]
    show (((b.val * 32 + g.val) * 16 + j.val) * 32 + y.val) * 32 + z.val
      = ((b.val * 512 + c.val) * 32 + y.val) * 32 + z.val
    omega)

/-! ## Channel-major and token-major -/

/-- Token-major (b, n, c) with n = 32·y + z is channel-major (b, c, y, z). -/
theorem tokens_apply (x : S32x512x32x32.Idx → α) (ht : S32x512x32x32.Transposes [0, 2, 3, 1] S32x32x32x512)
    (hs : S32x32x32x512.ShapeCasts S32x1024x512) (b : Fin 32) (n : Fin 1024) (c : Fin 512) (y z : Fin 32)
    (hn : n.val = y.val * 32 + z.val) :
    shapeCast S32x1024x512 (transpose S32x32x32x512 [0, 2, 3, 1] x ht) hs (ix3 b n c) = x (ix4 b c y z) := by
  refine (shapeCast_apply _ hs (ix3 b n c) (ix4 b y z c) ?_).trans ?_
  · rw [Shape.rowMajor_val_four, Shape.rowMajor_val_three]
    show ((b.val * 32 + y.val) * 32 + z.val) * 512 + c.val = (b.val * 1024 + n.val) * 512 + c.val
    omega
  · exact transpose_apply _ x ht _ _ fun a => match a with
      | ⟨0, _⟩ => rfl | ⟨1, _⟩ => rfl | ⟨2, _⟩ => rfl | ⟨3, _⟩ => rfl

/-- Channel-major (b, c, y, z) is token-major (b, 32·y + z, c). -/
theorem channels_apply (t : S32x1024x512.Idx → α) (hs : S32x1024x512.ShapeCasts S32x32x32x512)
    (ht : S32x32x32x512.Transposes [0, 3, 1, 2] S32x512x32x32) (b : Fin 32) (c : Fin 512) (y z : Fin 32) (n : Fin 1024)
    (hn : n.val = y.val * 32 + z.val) :
    transpose S32x512x32x32 [0, 3, 1, 2] (shapeCast S32x32x32x512 t hs) ht (ix4 b c y z) = t (ix3 b n c) := by
  refine (transpose_apply _ _ ht (ix4 b c y z) (ix4 b y z c) fun a => match a with
      | ⟨0, _⟩ => rfl | ⟨1, _⟩ => rfl | ⟨2, _⟩ => rfl | ⟨3, _⟩ => rfl).trans ?_
  refine shapeCast_apply t hs _ _ ?_
  rw [Shape.rowMajor_val_four, Shape.rowMajor_val_three]
  show (b.val * 1024 + n.val) * 512 + c.val = ((b.val * 32 + y.val) * 32 + z.val) * 512 + c.val
  omega

/-! ## Broadcasts -/

/-- A scalar spread over any shape reads the scalar. -/
theorem scalar_bcast_apply {t : Shape} (dims : Fin S_.rank → Fin t.rank) (h : S_.BroadcastsInDim t dims)
    (s : S_.Idx → α) (i : t.Idx) : broadcastInDim t dims h s i = s ix0 :=
  broadcastInDim_apply dims h s i ix0 fun a => a.elim0

/-- A [32, 32] array kept as [32, 32, 1, 1, 1]. -/
theorem keep_apply (s : S32x32.Idx → α) (h : S32x32.BroadcastsInDim S32x32x1x1x1 (![0, 1] : Fin 2 → Fin S32x32x1x1x1.rank))
    (b g : Fin 32) (u v w : Fin 1) :
    broadcastInDim S32x32x1x1x1 ![0, 1] h s (ix5 b g u v w) = s (ix2 b g) :=
  broadcastInDim_apply _ h s _ _ fun a => match a with | ⟨0, _⟩ => rfl | ⟨1, _⟩ => rfl

/-- A [32, 32, 1, 1, 1] statistic spread over its group. -/
theorem spread_apply (s : S32x32x1x1x1.Idx → α)
    (h : S32x32x1x1x1.BroadcastsInDim S32x32x16x32x32 (![0, 1, 2, 3, 4] : Fin 5 → Fin S32x32x16x32x32.rank))
    (b g : Fin 32) (j : Fin 16) (y z : Fin 32) :
    broadcastInDim S32x32x16x32x32 ![0, 1, 2, 3, 4] h s (ix5 b g j y z) = s (ix5 b g (0 : Fin 1) (0 : Fin 1) (0 : Fin 1)) :=
  broadcastInDim_apply _ h s _ _ fun a => match a with
    | ⟨0, _⟩ => rfl | ⟨1, _⟩ => rfl | ⟨2, _⟩ => rfl | ⟨3, _⟩ => rfl | ⟨4, _⟩ => rfl

/-- A per-channel vector spread over [32, 512, 32, 32]. -/
theorem perChannel_apply (g : S512.Idx → α) (h1 : S512.BroadcastsInDim S1x512x1x1 (![1] : Fin 1 → Fin S1x512x1x1.rank))
    (h2 : S1x512x1x1.BroadcastsInDim S32x512x32x32 (![0, 1, 2, 3] : Fin 4 → Fin S32x512x32x32.rank))
    (b : Fin 32) (c : Fin 512) (y z : Fin 32) :
    broadcastInDim S32x512x32x32 ![0, 1, 2, 3] h2 (broadcastInDim S1x512x1x1 ![1] h1 g) (ix4 b c y z) = g (ix1 c) := by
  refine (broadcastInDim_apply _ h2 _ (ix4 b c y z) (ix4 (0 : Fin 1) c (0 : Fin 1) (0 : Fin 1)) fun a => match a with
      | ⟨0, _⟩ => rfl | ⟨1, _⟩ => rfl | ⟨2, _⟩ => rfl | ⟨3, _⟩ => rfl).trans ?_
  exact broadcastInDim_apply _ h1 g _ _ fun a => match a with | ⟨0, _⟩ => rfl

/-- A per-feature vector spread over [32, 1024, 512]. -/
theorem perFeature_apply (g : S512.Idx → α) (h1 : S512.BroadcastsInDim S1x1x512 (![2] : Fin 1 → Fin S1x1x512.rank))
    (h2 : S1x1x512.BroadcastsInDim S32x1024x512 (![0, 1, 2] : Fin 3 → Fin S32x1024x512.rank))
    (b : Fin 32) (n : Fin 1024) (c : Fin 512) :
    broadcastInDim S32x1024x512 ![0, 1, 2] h2 (broadcastInDim S1x1x512 ![2] h1 g) (ix3 b n c) = g (ix1 c) := by
  refine (broadcastInDim_apply _ h2 _ (ix3 b n c) (ix3 (0 : Fin 1) (0 : Fin 1) c) fun a => match a with
      | ⟨0, _⟩ => rfl | ⟨1, _⟩ => rfl | ⟨2, _⟩ => rfl).trans ?_
  exact broadcastInDim_apply _ h1 g _ _ fun a => match a with | ⟨0, _⟩ => rfl

/-- A per-row statistic [32, 1024] spread along its row of [32, 1024, 1024]. -/
theorem alongRow_apply (s : S32x1024.Idx → α) (h1 : S32x1024.BroadcastsInDim S32x1024x1 (![0, 1] : Fin 2 → Fin S32x1024x1.rank))
    (h2 : S32x1024x1.BroadcastsInDim S32x1024x1024 (![0, 1, 2] : Fin 3 → Fin S32x1024x1024.rank))
    (b : Fin 32) (n m : Fin 1024) :
    broadcastInDim S32x1024x1024 ![0, 1, 2] h2 (broadcastInDim S32x1024x1 ![0, 1] h1 s) (ix3 b n m) = s (ix2 b n) := by
  refine (broadcastInDim_apply _ h2 _ (ix3 b n m) (ix3 b n (0 : Fin 1)) fun a => match a with
      | ⟨0, _⟩ => rfl | ⟨1, _⟩ => rfl | ⟨2, _⟩ => rfl).trans ?_
  exact broadcastInDim_apply _ h1 s _ _ fun a => match a with | ⟨0, _⟩ => rfl | ⟨1, _⟩ => rfl

end Cert.ReferenceIdeal.RefOps
-- ==== Proof.RefOpsReduce.lean ====
/-
  The reference's reductions read at an index, on the extended reals. The sum over a group's axes (channel in
  group, row, column) of the grouped array [32, 32, 16, 32, 32] is the initial value plus a triple sum over the three
  coordinates; the sum along the last axis of [32, 1024, 1024] is the initial value plus the sum over that axis; the
  maximum along the last axis is the fold of max from the initial value.
-/
import proofs.«105434_j74663711474018_2_alg».proof.ReferenceIdeal
import Idealize.ShloMosaic.Lib.ValueIdx
import Idealize.ShloMosaic.PureOps.Ideal.Laws

open scoped BigOperators

namespace Cert.ReferenceIdeal.RefOps

open Idealize.ShloMosaic Idealize.ShloMosaic.ValueIdx Cert.ReferenceIdeal

/-- The grouped indices that keep (b, g) when the three inner axes are dropped are exactly (b, g, j, y, z): a sum over
    them is the triple sum over the inner coordinates. -/
theorem sum_filter_group {M : Type*} [AddCommMonoid M] (hr : S32x32x16x32x32.ReducesTo [2, 3, 4] S32x32)
    (f : S32x32x16x32x32.Idx → M) (b g : Fin 32) :
    ∑ i ∈ Finset.univ.filter (fun i => hr.drop i = ix2 b g), f i
      = ∑ j : Fin 16, ∑ y : Fin 32, ∑ z : Fin 32, f (ix5 b g j y z) := by
  have e : ∑ p : Fin 16 × Fin 32 × Fin 32, f (ix5 b g p.1 p.2.1 p.2.2)
      = ∑ j : Fin 16, ∑ y : Fin 32, ∑ z : Fin 32, f (ix5 b g j y z) := by
    simp only [Fintype.sum_prod_type]
  rw [← e]
  have key : ∀ i : S32x32x16x32x32.Idx, hr.drop i = ix2 b g → ix5 b g (i 2 : Fin 16) (i 3 : Fin 32) (i 4 : Fin 32) = i := by
    intro i hi
    have h0 : (i 0).val = b.val :=
      (hr.drop_apply_val_of_eq i 0 0).symm.trans (congrArg (fun k : S32x32.Idx => (k 0).val) hi)
    have h1 : (i 1).val = g.val :=
      (hr.drop_apply_val_of_eq i 1 1).symm.trans (congrArg (fun k : S32x32.Idx => (k 1).val) hi)
    funext a
    match a with
    | ⟨0, _⟩ => exact Fin.ext h0.symm
    | ⟨1, _⟩ => exact Fin.ext h1.symm
    | ⟨2, _⟩ => rfl
    | ⟨3, _⟩ => rfl
    | ⟨4, _⟩ => rfl
  refine Finset.sum_nbij' (fun i => ((i 2 : Fin 16), (i 3 : Fin 32), (i 4 : Fin 32)))
    (fun p => ix5 b g p.1 p.2.1 p.2.2) ?_ ?_ ?_ ?_ ?_
  · intro i _; exact Finset.mem_univ _
  · intro p _
    refine Finset.mem_filter.2 ⟨Finset.mem_univ _, ?_⟩
    funext a
    match a with
    | ⟨0, _⟩ => exact Fin.ext (hr.drop_apply_val_of_eq _ 0 0)
    | ⟨1, _⟩ => exact Fin.ext (hr.drop_apply_val_of_eq _ 1 1)
  · intro i hi; exact key i (Finset.mem_filter.1 hi).2
  · intro p _; rfl
  · intro i hi; exact congrArg f (key i (Finset.mem_filter.1 hi).2).symm

/-- The host's sum over a group's axes, at (b, g): the initial value plus the triple sum. -/
theorem groupSum_apply (v : FVec Ideal S32x32x16x32x32 .f32) (init : FVec Ideal S_ .f32)
    (hr : S32x32x16x32x32.ReducesTo [2, 3, 4] S32x32) (hu : 0 < S_.numel) (b g : Fin 32) :
    Host.reduceAdd (F := Ideal) v init hr hu (ix2 b g)
      = init ix0 + ∑ j : Fin 16, ∑ y : Fin 32, ∑ z : Fin 32, v (ix5 b g j y z) := by
  show Ideal.hostReduceAdd hr v (init (Shape.Idx.first hu)) (ix2 b g) = _
  unfold Ideal.hostReduceAdd
  rw [sum_filter_group hr v b g, eq_ix0 (Shape.Idx.first hu)]

/-- The host's sum along a row of [32, 1024, 1024], at (b, n): the initial value plus the sum over the row. -/
theorem rowSum_apply (e : FVec Ideal S32x1024x1024 .f32) (init : FVec Ideal S_ .f32)
    (hr : S32x1024x1024.ReducesTo [2] S32x1024) (hu : 0 < S_.numel) (b : Fin 32) (n : Fin 1024) :
    Host.reduceAdd (F := Ideal) e init hr hu (ix2 b n) = init ix0 + ∑ m : Fin 1024, e (ix3 b n m) := by
  have h : S32x1024x1024.Reduces [2] S32x1024 := by decide
  refine (Ideal.hostReduceAdd_single hr h e (init (Shape.Idx.first hu)) (ix2 b n)).trans ?_
  rw [eq_ix0 (Shape.Idx.first hu)]
  refine congrArg (init ix0 + ·) ?_
  show ∑ m : Fin 1024, e (h.lift (ix2 b n) m) = ∑ m : Fin 1024, e (ix3 b n m)
  refine Finset.sum_congr rfl fun m _ => congrArg e ?_
  funext a
  match a with
  | ⟨0, _⟩ => exact Fin.ext rfl
  | ⟨1, _⟩ => exact Fin.ext rfl
  | ⟨2, _⟩ => exact Fin.ext rfl

/-- The host's maximum along a row of [32, 1024, 1024], at (b, n): the fold of max from the initial value over the row. -/
theorem rowMax_apply (s : FVec Ideal S32x1024x1024 .f32) (init : FVec Ideal S_ .f32)
    (hr : S32x1024x1024.ReducesTo [2] S32x1024) (hu : 0 < S_.numel) (b : Fin 32) (n : Fin 1024) :
    Host.reduce (FloatOps.maximumf (F := Ideal) (φ := .f32)) s init hr hu (ix2 b n)
      = (Finset.univ : Finset (Fin 1024)).fold max (init ix0) (fun m => s (ix3 b n m)) := by
  have h : S32x1024x1024.Reduces [2] S32x1024 := by decide
  refine (Host.reduce_eq_fold_single (FloatOps.maximumf (F := Ideal) (φ := .f32)) s init hr h hu (ix2 b n)).trans ?_
  rw [eq_ix0 (Shape.Idx.first hu)]
  show (Finset.univ : Finset (Fin 1024)).fold max (init ix0) (s ∘ h.lift (ix2 b n)) = _
  refine congrArg (Finset.fold max (init ix0) · Finset.univ) ?_
  funext m
  refine congrArg s ?_
  funext a
  match a with
  | ⟨0, _⟩ => exact Fin.ext rfl
  | ⟨1, _⟩ => exact Fin.ext rfl
  | ⟨2, _⟩ => exact Fin.ext rfl

end Cert.ReferenceIdeal.RefOps
-- ==== Proof.RefOpsDot.lean ====
/-
  The reference's three products read at an index, on the extended reals: token-major data against a weight matrix
  contracted on the weight's second axis (data · weightᵀ), queries against keys per batch entry contracted on the
  feature axis, and attention weights against values per batch entry contracted on the key-token axis. Each is the sum
  over the one contracted coordinate of the products of the entries.
-/
import proofs.«105434_j74663711474018_2_alg».proof.ReferenceIdeal
import Idealize.ShloMosaic.Lib.ValueIdx
import Idealize.ShloMosaic.PureOps.Ideal.Laws

open scoped BigOperators

namespace Cert.ReferenceIdeal.RefOps

open Idealize.ShloMosaic Idealize.ShloMosaic.ValueIdx Cert.ReferenceIdeal

variable [Facts₀]

/-- data · weightᵀ at (b, n, o): the sum over the feature c of data (b, n, c) times weight (o, c). -/
theorem dotWeight_apply (t : FVec Ideal S32x1024x512 .f32) (w : FVec Ideal S512x512 .f32)
    (b : Fin 32) (n : Fin 1024) (o : Fin 512) :
    Host.dotGeneral (F := Ideal) dot_S32x1024x512_S512x512_S32x1024x512_2_1_01_0_n_n none t w (ix3 b n o)
      = ∑ c : Fin 512, t (ix3 b n c) * w (ix2 o c) := by
  show FloatOps.dotGeneral _ none _ t w (ix3 b n o) = _
  rw [Ideal.dotGeneral_apply,
    ← Equiv.sum_comp (contrEquiv1 dot_S32x1024x512_S512x512_S32x1024x512_2_1_01_0_n_n 512 rfl rfl).symm]
  refine Finset.sum_congr rfl fun c _ => ?_
  have cv := contrEquiv1_symm_val dot_S32x1024x512_S512x512_S32x1024x512_2_1_01_0_n_n 512 rfl rfl c
  have hl : dot_S32x1024x512_S512x512_S32x1024x512_2_1_01_0_n_n.lhsIdx (ix3 b n o)
      ((contrEquiv1 _ 512 rfl rfl).symm c) = ix3 b n c := by
    funext ax; apply Fin.ext
    match ax with
    | ⟨0, _⟩ => rfl
    | ⟨1, _⟩ => rfl
    | ⟨2, _⟩ =>
      exact (dot_S32x1024x512_S512x512_S32x1024x512_2_1_01_0_n_n.lhsIdx_val_of_single (cl := 2) rfl _ _).trans cv
  have hr : dot_S32x1024x512_S512x512_S32x1024x512_2_1_01_0_n_n.rhsIdx (ix3 b n o)
      ((contrEquiv1 _ 512 rfl rfl).symm c) = ix2 o c := by
    funext ax; apply Fin.ext
    match ax with
    | ⟨0, _⟩ => rfl
    | ⟨1, _⟩ =>
      exact (dot_S32x1024x512_S512x512_S32x1024x512_2_1_01_0_n_n.rhsIdx_val_of_single (cr := 1) rfl _ _).trans cv
  rw [hl, hr]

/-- query · keyᵀ per batch entry at (b, n, m): the sum over the feature c of query (b, n, c) times key (b, m, c). -/
theorem dotScores_apply (q k : FVec Ideal S32x1024x512 .f32) (b : Fin 32) (n m : Fin 1024) :
    Host.dotGeneral (F := Ideal) dot_S32x1024x512_S32x1024x512_S32x1024x1024_2_2_1_1_0_0 none q k (ix3 b n m)
      = ∑ c : Fin 512, q (ix3 b n c) * k (ix3 b m c) := by
  show FloatOps.dotGeneral _ none _ q k (ix3 b n m) = _
  rw [Ideal.dotGeneral_apply,
    ← Equiv.sum_comp (contrEquiv1 dot_S32x1024x512_S32x1024x512_S32x1024x1024_2_2_1_1_0_0 512 rfl rfl).symm]
  refine Finset.sum_congr rfl fun c _ => ?_
  have cv := contrEquiv1_symm_val dot_S32x1024x512_S32x1024x512_S32x1024x1024_2_2_1_1_0_0 512 rfl rfl c
  have hl : dot_S32x1024x512_S32x1024x512_S32x1024x1024_2_2_1_1_0_0.lhsIdx (ix3 b n m)
      ((contrEquiv1 _ 512 rfl rfl).symm c) = ix3 b n c := by
    funext ax; apply Fin.ext
    match ax with
    | ⟨0, _⟩ => rfl
    | ⟨1, _⟩ => rfl
    | ⟨2, _⟩ =>
      exact (dot_S32x1024x512_S32x1024x512_S32x1024x1024_2_2_1_1_0_0.lhsIdx_val_of_single (cl := 2) rfl _ _).trans cv
  have hr : dot_S32x1024x512_S32x1024x512_S32x1024x1024_2_2_1_1_0_0.rhsIdx (ix3 b n m)
      ((contrEquiv1 _ 512 rfl rfl).symm c) = ix3 b m c := by
    funext ax; apply Fin.ext
    match ax with
    | ⟨0, _⟩ => rfl
    | ⟨1, _⟩ => rfl
    | ⟨2, _⟩ =>
      exact (dot_S32x1024x512_S32x1024x512_S32x1024x1024_2_2_1_1_0_0.rhsIdx_val_of_single (cr := 2) rfl _ _).trans cv
  rw [hl, hr]

/-- weights · values per batch entry at (b, n, c): the sum over the key token m of weight (b, n, m) times value (b, m, c). -/
theorem dotMix_apply (a : FVec Ideal S32x1024x1024 .f32) (v : FVec Ideal S32x1024x512 .f32)
    (b : Fin 32) (n : Fin 1024) (c : Fin 512) :
    Host.dotGeneral (F := Ideal) dot_S32x1024x1024_S32x1024x512_S32x1024x512_2_1_1_2_0_0 none a v (ix3 b n c)
      = ∑ m : Fin 1024, a (ix3 b n m) * v (ix3 b m c) := by
  show FloatOps.dotGeneral _ none _ a v (ix3 b n c) = _
  rw [Ideal.dotGeneral_apply,
    ← Equiv.sum_comp (contrEquiv1 dot_S32x1024x1024_S32x1024x512_S32x1024x512_2_1_1_2_0_0 1024 rfl rfl).symm]
  refine Finset.sum_congr rfl fun m _ => ?_
  have cv := contrEquiv1_symm_val dot_S32x1024x1024_S32x1024x512_S32x1024x512_2_1_1_2_0_0 1024 rfl rfl m
  have hl : dot_S32x1024x1024_S32x1024x512_S32x1024x512_2_1_1_2_0_0.lhsIdx (ix3 b n c)
      ((contrEquiv1 _ 1024 rfl rfl).symm m) = ix3 b n m := by
    funext ax; apply Fin.ext
    match ax with
    | ⟨0, _⟩ => rfl
    | ⟨1, _⟩ => rfl
    | ⟨2, _⟩ =>
      exact (dot_S32x1024x1024_S32x1024x512_S32x1024x512_2_1_1_2_0_0.lhsIdx_val_of_single (cl := 2) rfl _ _).trans cv
  have hr : dot_S32x1024x1024_S32x1024x512_S32x1024x512_2_1_1_2_0_0.rhsIdx (ix3 b n c)
      ((contrEquiv1 _ 1024 rfl rfl).symm m) = ix3 b m c := by
    funext ax; apply Fin.ext
    match ax with
    | ⟨0, _⟩ => rfl
    | ⟨1, _⟩ =>
      exact (dot_S32x1024x1024_S32x1024x512_S32x1024x512_2_1_1_2_0_0.rhsIdx_val_of_single (cr := 1) rfl _ _).trans cv
    | ⟨2, _⟩ => rfl
  rw [hl, hr]

end Cert.ReferenceIdeal.RefOps
-- ==== Proof.RefRead.lean ====
/-
  The reference's result, entry by entry, is the specification with the statistics taken over the whole group at once.
  One lemma per stage of the reference, each over variable operands: the grouped view reads channel 16·g + j at token
  32·row + column; the group sum is a triple sum over channel in group, row and column; the variance function's guard
  "count − 0 > 0" holds, so its quotient is selected and its divisor is the count; the flattened normalised array at
  channel c reads group c / 16; token-major data reads channel-major data at row n / 32 and column n % 32; each product
  is a sum over its contracted coordinate; the row maximum from -∞ is the fold of max from ⊥. The stages after the
  normalisation are read under pointwise hypotheses on their operands, so that each composes with the one before it
  without opening it.
-/
import proofs.«105434_j74663711474018_2_alg».proof.Proof.RefTerm
import proofs.«105434_j74663711474018_2_alg».proof.Proof.SpecArrays
import proofs.«105434_j74663711474018_2_alg».proof.Proof.SpecConsts
import proofs.«105434_j74663711474018_2_alg».proof.Proof.RefOpsLayout
import proofs.«105434_j74663711474018_2_alg».proof.Proof.RefOpsReduce
import proofs.«105434_j74663711474018_2_alg».proof.Proof.RefOpsDot
import Idealize.ShloMosaic.Lib.IdealHost

open scoped BigOperators

namespace Cert.ReferenceIdeal.RefRead

open Idealize.ShloMosaic Idealize.ShloMosaic.ValueIdx Cert.ReferenceIdeal Cert.ReferenceIdeal.Gen Cert.ReferenceIdeal.RefOps

/-! ## Channels, groups, tokens -/

theorem rowOf_tok (y z : Fin 32) : Attn.rowOf (Attn.tok y z) = y :=
  Fin.ext (by show (y.val * 32 + z.val) / 32 = y.val; omega)

theorem colOf_tok (y z : Fin 32) : Attn.colOf (Attn.tok y z) = z :=
  Fin.ext (by show (y.val * 32 + z.val) % 32 = z.val; omega)

theorem tok_rowOf_colOf (n : Fin 1024) : Attn.tok (Attn.rowOf n) (Attn.colOf n) = n :=
  Fin.ext (by show n.val / 32 * 32 + n.val % 32 = n.val; omega)

theorem chan_grp (c : Fin 512) (j : Fin 16) (hj : j.val = c.val % 16) : Attn.chan (Attn.grp c) j = c :=
  Fin.ext (by show c.val / 16 * 16 + j.val = c.val; omega)

/-- Batch entry b at channel c and token 32·y + z is the array at (b, c, y, z). -/
theorem batchOf_tok (x : FVec Ideal S32x512x32x32 .f32) (b : Fin 32) (c : Fin 512) (y z : Fin 32) :
    Attn.batchOf x b c (Attn.tok y z) = x (ix4 b c y z) := by
  unfold Attn.batchOf
  rw [rowOf_tok, colOf_tok]

/-! ## Scalars -/

theorem hostRsqrt_apply {s : Shape} (v : FVec Ideal s .f32) (i : s.Idx) : Host.rsqrt (F := Ideal) v i = Ideal.rsqrt (v i) := rfl
theorem hostExp_apply {s : Shape} (v : FVec Ideal s .f32) (i : s.Idx) : Host.exp (F := Ideal) v i = Ideal.exp (v i) := rfl

theorem zeroS_apply : RefTerm.zeroS ix0 = 0 := Ideal.ofBits_zero_f32

theorem count_pos : (0 : EReal) < Attn.count := by
  rw [Attn.count_eq]
  exact_mod_cast (by norm_num : (0 : ℝ) < 16384)

/-- The variance function's divisor, the count minus the converted integer zero, is the count. -/
theorem divisor_apply : RefTerm.divisor ix0 = Attn.count := by
  show Ideal.ofBits .f32 0x46800000#32 - (((0#32 : BitVec 32).toInt : ℝ) : EReal) = Attn.count
  simp [Attn.count]

/-- The guard "divisor > 0" is the bit 1. -/
theorem guard_apply : cmpf .ogt RefTerm.divisor RefTerm.zeroS ix0 = 1#1 := by
  show Ideal.cmp .ogt (RefTerm.divisor ix0) (RefTerm.zeroS ix0) = 1#1
  rw [divisor_apply, zeroS_apply]
  simp [Ideal.cmp, count_pos]

theorem countB_apply (i : S32x32x1x1x1.Idx) : RefTerm.countB i = Attn.count := by
  unfold RefTerm.countB
  rw [scalar_bcast_apply]
  rfl

/-! ## The normalisation -/

section Norm

variable (x : FVec Ideal S32x512x32x32 .f32)

theorem grouped_read (b g : Fin 32) (j : Fin 16) (y z : Fin 32) :
    RefTerm.grouped x (ix5 b g j y z) = Attn.batchOf x b (Attn.chan g j) (Attn.tok y z) := by
  rw [batchOf_tok]
  exact grouped_apply x _ b g j y z (Attn.chan g j) rfl

theorem groupSum_read (v : FVec Ideal S32x32x16x32x32 .f32) (b g : Fin 32) (u1 u2 u3 : Fin 1) :
    RefTerm.groupSum v (ix5 b g u1 u2 u3) = ∑ j : Fin 16, ∑ y : Fin 32, ∑ z : Fin 32, v (ix5 b g j y z) := by
  unfold RefTerm.groupSum
  rw [keep_apply, groupSum_apply, zeroS_apply, zero_add]

theorem refMean_read (b g : Fin 32) (u1 u2 u3 : Fin 1) :
    RefTerm.refMean x (ix5 b g u1 u2 u3) = Attn.meanR (Attn.batchOf x b) g := by
  unfold RefTerm.refMean
  rw [hostDivf_apply, groupSum_read, countB_apply]
  unfold Attn.meanR Attn.sumR
  simp only [grouped_read]

theorem spread_read (s : FVec Ideal S32x32x1x1x1 .f32) (b g : Fin 32) (j : Fin 16) (y z : Fin 32) :
    RefTerm.spread s (ix5 b g j y z) = s (ix5 b g (0 : Fin 1) (0 : Fin 1) (0 : Fin 1)) :=
  spread_apply s _ b g j y z

theorem centered_read (b g : Fin 32) (j : Fin 16) (y z : Fin 32) :
    RefTerm.centered x (ix5 b g j y z)
      = Attn.batchOf x b (Attn.chan g j) (Attn.tok y z) - Attn.meanR (Attn.batchOf x b) g := by
  unfold RefTerm.centered
  rw [subf_apply, grouped_read, spread_read, refMean_read]

theorem refVar_read (b g : Fin 32) (u1 u2 u3 : Fin 1) :
    RefTerm.refVar x (ix5 b g u1 u2 u3) = Attn.varR (Attn.batchOf x b) g := by
  unfold RefTerm.refVar
  rw [select_apply, scalar_bcast_apply, guard_apply, select_one, hostDivf_apply, groupSum_read, scalar_bcast_apply,
    divisor_apply]
  unfold Attn.varR
  simp only [mulf_apply, centered_read]

theorem refRstd_read (b g : Fin 32) (u1 u2 u3 : Fin 1) :
    RefTerm.refRstd x (ix5 b g u1 u2 u3) = Attn.rstdR (Attn.batchOf x b) g := by
  unfold RefTerm.refRstd
  rw [hostRsqrt_apply, addf_apply, refVar_read, scalar_bcast_apply]
  rfl

theorem perChannel_read (g : FVec Ideal S512 .f32) (b : Fin 32) (c : Fin 512) (y z : Fin 32) :
    RefTerm.perChannel g (ix4 b c y z) = Attn.vecOf g c :=
  perChannel_apply g _ _ b c y z

theorem refNorm_read (gw gb : FVec Ideal S512 .f32) (b : Fin 32) (c : Fin 512) (y z : Fin 32) :
    RefTerm.refNorm x gw gb (ix4 b c y z)
      = Attn.normR (Attn.batchOf x b) (Attn.vecOf gw) (Attn.vecOf gb) c (Attn.tok y z) := by
  have hj : c.val % 16 < 16 := Nat.mod_lt _ (by norm_num)
  unfold RefTerm.refNorm
  rw [addf_apply, mulf_apply, perChannel_read, perChannel_read,
    ungrouped_apply _ _ b c y z (Attn.grp c) ⟨c.val % 16, hj⟩ (by show c.val = c.val / 16 * 16 + c.val % 16; omega),
    mulf_apply, centered_read, spread_read, refRstd_read, chan_grp c ⟨c.val % 16, hj⟩ rfl]
  rfl

theorem tokens_read (h4 : FVec Ideal S32x512x32x32 .f32) (b : Fin 32) (n : Fin 1024) (c : Fin 512) :
    RefTerm.tokens h4 (ix3 b n c) = h4 (ix4 b c (Attn.rowOf n) (Attn.colOf n)) :=
  tokens_apply h4 _ _ b n c (Attn.rowOf n) (Attn.colOf n) (by show n.val = n.val / 32 * 32 + n.val % 32; omega)

/-- The normalised array in token-major layout is the specification's normalised array of the batch entry. -/
theorem normTokens_read (gw gb : FVec Ideal S512 .f32) (b : Fin 32) (n : Fin 1024) (c : Fin 512) :
    RefTerm.tokens (RefTerm.refNorm x gw gb) (ix3 b n c)
      = Attn.normR (Attn.batchOf x b) (Attn.vecOf gw) (Attn.vecOf gb) c n := by
  rw [tokens_read, refNorm_read, tok_rowOf_colOf]

end Norm

/-! ## Attention, under pointwise hypotheses on the operands -/

theorem refProj_read (t : FVec Ideal S32x1024x512 .f32) (w : FVec Ideal S512x512 .f32) (bias : FVec Ideal S512 .f32)
    (b : Fin 32) (n : Fin 1024) (o : Fin 512) :
    RefTerm.refProj t w bias (ix3 b n o) = (∑ c : Fin 512, t (ix3 b n c) * w (ix2 o c)) + bias (ix1 o) := by
  unfold RefTerm.refProj
  rw [addf_apply, dotWeight_apply, perFeature_apply]

theorem refProj_spec (t : FVec Ideal S32x1024x512 .f32) (w : FVec Ideal S512x512 .f32) (bias : FVec Ideal S512 .f32)
    (b : Fin 32) (H : Fin 512 → Fin 1024 → EReal) (ht : ∀ n c, t (ix3 b n c) = H c n) (n : Fin 1024) (o : Fin 512) :
    RefTerm.refProj t w bias (ix3 b n o) = Attn.proj (Attn.matOf w) (Attn.vecOf bias) H o n := by
  rw [refProj_read]
  unfold Attn.proj Attn.matOf Attn.vecOf
  refine congrArg (· + bias (ix1 o)) (Finset.sum_congr rfl fun c _ => ?_)
  rw [ht, mul_comm]

theorem refScores_spec (q k : FVec Ideal S32x1024x512 .f32) (b : Fin 32) (Q K : Fin 512 → Fin 1024 → EReal)
    (hq : ∀ n c, q (ix3 b n c) = Q c n) (hk : ∀ m c, k (ix3 b m c) = K c m) (n m : Fin 1024) :
    RefTerm.refScores q k (ix3 b n m) = Attn.score Q K n m := by
  unfold RefTerm.refScores
  rw [mulf_apply, dotScores_apply, scalar_bcast_apply]
  unfold Attn.score
  refine congrArg₂ (· * ·) (Finset.sum_congr rfl fun c _ => ?_) rfl
  rw [hq, hk]

theorem alongRow_read (r : FVec Ideal S32x1024 .f32) (b : Fin 32) (n m : Fin 1024) :
    RefTerm.alongRow r (ix3 b n m) = r (ix2 b n) :=
  alongRow_apply r _ _ b n m

theorem refRowMax_spec (s : FVec Ideal S32x1024x1024 .f32) (b : Fin 32) (S : Fin 1024 → Fin 1024 → EReal)
    (hs : ∀ n m, s (ix3 b n m) = S n m) (n : Fin 1024) :
    RefTerm.refRowMax s (ix2 b n) = Attn.rowMax S n := by
  unfold RefTerm.refRowMax
  rw [maximumf_apply, scalar_bcast_apply, rowMax_apply]
  show max (Ideal.ofBits .f32 0xFF800000#32)
      ((Finset.univ : Finset (Fin 1024)).fold max (Ideal.ofBits .f32 0xFF800000#32) fun m => s (ix3 b n m)) = _
  rw [Attn.ofBits_neg_inf, max_bot_left]
  unfold Attn.rowMax
  exact congrArg (Finset.fold max (⊥ : EReal) · Finset.univ) (funext fun m => hs n m)

theorem refExp_spec (s : FVec Ideal S32x1024x1024 .f32) (b : Fin 32) (S : Fin 1024 → Fin 1024 → EReal)
    (hs : ∀ n m, s (ix3 b n m) = S n m) (n m : Fin 1024) :
    RefTerm.refExp s (ix3 b n m) = Attn.expo S n m := by
  unfold RefTerm.refExp
  rw [hostExp_apply, subf_apply, alongRow_read, refRowMax_spec s b S hs, hs]
  rfl

theorem refSoft_spec (s : FVec Ideal S32x1024x1024 .f32) (b : Fin 32) (S : Fin 1024 → Fin 1024 → EReal)
    (hs : ∀ n m, s (ix3 b n m) = S n m) (n m : Fin 1024) :
    RefTerm.refSoft s (ix3 b n m) = Attn.soft S n m := by
  unfold RefTerm.refSoft
  rw [hostDivf_apply, alongRow_read, rowSum_apply, zeroS_apply, zero_add, refExp_spec s b S hs]
  unfold Attn.soft
  exact congrArg (Ideal.div (Attn.expo S n m)) (Finset.sum_congr rfl fun m' _ => refExp_spec s b S hs n m')

theorem refMix_spec (a : FVec Ideal S32x1024x1024 .f32) (v : FVec Ideal S32x1024x512 .f32) (b : Fin 32)
    (A : Fin 1024 → Fin 1024 → EReal) (V : Fin 512 → Fin 1024 → EReal)
    (ha : ∀ n m, a (ix3 b n m) = A n m) (hv : ∀ m c, v (ix3 b m c) = V c m) (n : Fin 1024) (c : Fin 512) :
    RefTerm.refMix a v (ix3 b n c) = Attn.mix V A c n := by
  unfold RefTerm.refMix
  rw [dotMix_apply]
  unfold Attn.mix
  refine Finset.sum_congr rfl fun m _ => ?_
  rw [ha, hv, mul_comm]

theorem channels_read (t : FVec Ideal S32x1024x512 .f32) (b : Fin 32) (c : Fin 512) (y z : Fin 32) :
    RefTerm.channels t (ix4 b c y z) = t (ix3 b (Attn.tok y z) c) :=
  channels_apply t _ _ b c y z (Attn.tok y z) rfl

/-! ## The whole result -/

/-- The reference's result is the specification with the statistics taken over the whole group at once. -/
theorem refTerm_eq (x : FVec Ideal S32x512x32x32 .f32) (gw gb : FVec Ideal S512 .f32) (wq : FVec Ideal S512x512 .f32)
    (bq : FVec Ideal S512 .f32) (wk : FVec Ideal S512x512 .f32) (bk : FVec Ideal S512 .f32)
    (wv : FVec Ideal S512x512 .f32) (bv : FVec Ideal S512 .f32) (wp : FVec Ideal S512x512 .f32) (bp : FVec Ideal S512 .f32) :
    RefTerm.refTerm x gw gb wq bq wk bk wv bv wp bp = Cert.Attn.resR x gw gb wq bq wk bk wv bv wp bp := by
  funext i
  obtain ⟨b, c, y, z, rfl⟩ : ∃ (b : Fin 32) (c : Fin 512) (y z : Fin 32), i = ix4 b c y z :=
    ⟨i 0, i 1, i 2, i 3, eq_ix4 i⟩
  rw [Attn.resR_apply]
  unfold RefTerm.refTerm
  rw [addf_apply, channels_read]
  unfold Attn.outR Attn.attend
  rw [batchOf_tok]
  refine congrArg (x (ix4 b c y z) + ·) ?_
  have hN := fun n c => normTokens_read x gw gb b n c
  have hq := fun n c => refProj_spec (RefTerm.tokens (RefTerm.refNorm x gw gb)) wq bq b _ hN n c
  have hk := fun n c => refProj_spec (RefTerm.tokens (RefTerm.refNorm x gw gb)) wk bk b _ hN n c
  have hv := fun n c => refProj_spec (RefTerm.tokens (RefTerm.refNorm x gw gb)) wv bv b _ hN n c
  have hs := fun n m => refScores_spec _ _ b _ _ hq hk n m
  have ha := fun n m => refSoft_spec _ b _ hs n m
  have hm := fun n c => refMix_spec _ _ b _ _ ha hv n c
  exact refProj_spec _ wp bp b _ hm (Attn.tok y z) c

end Cert.ReferenceIdeal.RefRead
-- ==== Proof.SpecMath.lean ====
/-
  The two spellings of the normalisation agree on real inputs.

  A group's sum does not depend on how its 16 · 1024 entries are enumerated (tokens are 32 · row + column, a bijection
  Fin 32 × Fin 32 ≃ Fin 1024), so the two means agree on any extended reals. For the variance the inputs must be real
  numbers: then every sum is the image of a real sum, the divisions by 16384 are products with 1/16384, and over a
  finite set of N = 16384 real numbers with mean μ,   (1/N) ∑ (y − μ)² = (1/N) ∑ y² − μ²,
  because ∑ (y − μ)² = ∑ y² − 2 μ ∑ y + N μ² and ∑ y = N μ.
-/
import Mathlib
import proofs.«105434_j74663711474018_2_alg».proof.Proof.SpecArrays
import proofs.«105434_j74663711474018_2_alg».proof.Proof.SpecConsts

noncomputable section

namespace Cert.Attn

open Idealize.ShloMosaic

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Tokens are pairs (row, column). -/
def tokEquiv : Fin 32 × Fin 32 ≃ Fin 1024 where
  toFun p := tok p.1 p.2
  invFun n := (rowOf n, colOf n)
  left_inv p := by
    have h1 := p.1.isLt; have h2 := p.2.isLt
    refine Prod.ext (Fin.ext ?_) (Fin.ext ?_)
    · show (p.1.val * 32 + p.2.val) / 32 = p.1.val; omega
    · show (p.1.val * 32 + p.2.val) % 32 = p.2.val; omega
  right_inv n := by
    refine Fin.ext ?_
    show n.val / 32 * 32 + n.val % 32 = n.val; omega

theorem rowOf_tok (h w : Fin 32) : rowOf (tok h w) = h := congrArg Prod.fst (tokEquiv.left_inv (h, w))
theorem colOf_tok (h w : Fin 32) : colOf (tok h w) = w := congrArg Prod.snd (tokEquiv.left_inv (h, w))
theorem tok_rowOf_colOf (n : Fin 1024) : tok (rowOf n) (colOf n) = n := tokEquiv.right_inv n

/-- A sum over rows and columns is the sum over tokens. -/
theorem sum_tok {M : Type*} [AddCommMonoid M] (F : Fin 1024 → M) :
    ∑ h : Fin 32, ∑ w : Fin 32, F (tok h w) = ∑ n : Fin 1024, F n := by
  rw [← Equiv.sum_comp tokEquiv F]
  exact (Fintype.sum_prod_type' (fun h w => F (tok h w))).symm

theorem sumR_eq_sumK (f : Fin 512 → Fin 1024 → EReal) (g : Fin 32) : sumR f g = sumK f g := by
  unfold sumR sumK
  exact Finset.sum_congr rfl fun j _ => sum_tok (fun n => f (chan g j) n)

theorem meanR_eq_meanK (X : Fin 512 → Fin 1024 → EReal) : meanR X = meanK X := by
  funext g; unfold meanR meanK; rw [sumR_eq_sumK]

/-- Over N real numbers with mean μ: the mean of the squared deviations is the mean of the squares minus μ². -/
theorem real_var {ι : Type*} [Fintype ι] (y : ι → ℝ) (N : ℝ) (hN : (Fintype.card ι : ℝ) = N) (hN0 : N ≠ 0) :
    (∑ p, (y p - (∑ p, y p) * (1 / N)) * (y p - (∑ p, y p) * (1 / N))) * (1 / N)
      = (∑ p, y p * y p) * (1 / N) - ((∑ p, y p) * (1 / N)) * ((∑ p, y p) * (1 / N)) := by
  set S := ∑ p, y p with hS
  set μ := S * (1 / N) with hμ
  have hD : ∑ p, (y p - μ) * (y p - μ) = (∑ p, y p * y p) - 2 * μ * S + N * (μ * μ) := by
    calc ∑ p, (y p - μ) * (y p - μ) = ∑ p, (y p * y p - 2 * μ * y p + μ * μ) :=
          Finset.sum_congr rfl fun p _ => by ring
      _ = (∑ p, y p * y p) - 2 * μ * S + N * (μ * μ) := by
          rw [Finset.sum_add_distrib, Finset.sum_sub_distrib, ← Finset.mul_sum, Finset.sum_const, Finset.card_univ,
            nsmul_eq_mul, hN]
  rw [hD, hμ]
  field_simp
  ring

/-- A group's channel-by-channel sum of real entries is the image of one real sum over the pairs (channel in group, token). -/
theorem sumK_coe (f : Fin 512 → Fin 1024 → ℝ) (g : Fin 32) :
    sumK (fun c n => ((f c n : ℝ) : EReal)) g = ((∑ p : Fin 16 × Fin 1024, f (chan g p.1) p.2 : ℝ) : EReal) := by
  unfold sumK
  rw [coe_sum, Fintype.sum_prod_type' (fun j n => ((f (chan g j) n : ℝ) : EReal))]

theorem div_count_coe (a : ℝ) : Ideal.div ((a : ℝ) : EReal) count = ((a * (1 / 16384) : ℝ) : EReal) := by
  rw [count_eq, Ideal.div_coe (by norm_num : (16384 : ℝ) ≠ 0), ← EReal.coe_mul]

theorem card_group : (Fintype.card (Fin 16 × Fin 1024) : ℝ) = 16384 := by
  simp [Fintype.card_prod, Fintype.card_fin]

/-- On real inputs the two variances agree. -/
theorem varR_eq_varK (Xr : Fin 512 → Fin 1024 → ℝ) (g : Fin 32) :
    varR (fun c n => ((Xr c n : ℝ) : EReal)) g = varK (fun c n => ((Xr c n : ℝ) : EReal)) g := by
  have hmean : meanK (fun c n => ((Xr c n : ℝ) : EReal)) g
      = (((∑ p : Fin 16 × Fin 1024, Xr (chan g p.1) p.2) * (1 / 16384) : ℝ) : EReal) := by
    unfold meanK; rw [sumK_coe, div_count_coe]
  have hmeanR : meanR (fun c n => ((Xr c n : ℝ) : EReal)) g
      = (((∑ p : Fin 16 × Fin 1024, Xr (chan g p.1) p.2) * (1 / 16384) : ℝ) : EReal) := by
    rw [meanR_eq_meanK]; exact hmean
  set μ : ℝ := (∑ p : Fin 16 × Fin 1024, Xr (chan g p.1) p.2) * (1 / 16384) with hμ
  have hK : varK (fun c n => ((Xr c n : ℝ) : EReal)) g
      = (((∑ p : Fin 16 × Fin 1024, Xr (chan g p.1) p.2 * Xr (chan g p.1) p.2) * (1 / 16384) - μ * μ : ℝ) : EReal) := by
    unfold varK
    rw [hmean]
    have hsq : (fun c n => ((Xr c n : ℝ) : EReal) * ((Xr c n : ℝ) : EReal))
        = fun c n => ((Xr c n * Xr c n : ℝ) : EReal) := by
      funext c n; exact (EReal.coe_mul _ _).symm
    rw [hsq, sumK_coe (fun c n => Xr c n * Xr c n), div_count_coe, ← EReal.coe_mul, ← EReal.coe_sub]
  have hR : varR (fun c n => ((Xr c n : ℝ) : EReal)) g
      = (((∑ p : Fin 16 × Fin 1024, (Xr (chan g p.1) p.2 - μ) * (Xr (chan g p.1) p.2 - μ)) * (1 / 16384) : ℝ) : EReal) := by
    unfold varR
    rw [hmeanR]
    have hdev : ∀ j : Fin 16, (∑ h : Fin 32, ∑ w : Fin 32,
          (((Xr (chan g j) (tok h w) : ℝ) : EReal) - ((μ : ℝ) : EReal)) * (((Xr (chan g j) (tok h w) : ℝ) : EReal) - ((μ : ℝ) : EReal)))
        = ∑ n : Fin 1024, (((Xr (chan g j) n - μ) * (Xr (chan g j) n - μ) : ℝ) : EReal) := by
      intro j
      rw [sum_tok (fun n => (((Xr (chan g j) n : ℝ) : EReal) - ((μ : ℝ) : EReal)) * (((Xr (chan g j) n : ℝ) : EReal) - ((μ : ℝ) : EReal)))]
      exact Finset.sum_congr rfl fun n _ => by rw [← EReal.coe_sub, ← EReal.coe_mul]
    rw [Finset.sum_congr rfl fun j _ => hdev j]
    have := sumK_coe (fun c n => (Xr c n - μ) * (Xr c n - μ)) g
    unfold sumK at this
    rw [this, div_count_coe]
  rw [hK, hR]
  congr 1
  exact real_var (fun p : Fin 16 × Fin 1024 => Xr (chan g p.1) p.2) 16384 card_group (by norm_num)

theorem normR_eq_normK (X : Fin 512 → Fin 1024 → EReal) (hX : ∀ c n, ∃ r : ℝ, X c n = ((r : ℝ) : EReal))
    (gw gb : Fin 512 → EReal) : normR X gw gb = normK X gw gb := by
  choose Xr hXr using hX
  obtain rfl : X = fun c n => ((Xr c n : ℝ) : EReal) := funext fun c => funext fun n => hXr c n
  have hstd : rstdR (fun c n => ((Xr c n : ℝ) : EReal)) = rstdK (fun c n => ((Xr c n : ℝ) : EReal)) := by
    funext g; unfold rstdR rstdK; rw [varR_eq_varK]
  unfold normR normK
  rw [meanR_eq_meanK, hstd]

theorem outR_eq_outK (X : Fin 512 → Fin 1024 → EReal) (hX : ∀ c n, ∃ r : ℝ, X c n = ((r : ℝ) : EReal))
    (gw gb : Fin 512 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wp : Fin 512 → Fin 512 → EReal) (bp : Fin 512 → EReal) :
    outR X gw gb Wq bq Wk bk Wv bv Wp bp = outK X gw gb Wq bq Wk bk Wv bv Wp bp := by
  unfold outR outK; rw [normR_eq_normK X hX]

/-- The whole results agree when every entry of the input is a real number. -/
theorem resR_eq_resK (x : A4.Idx → EReal) (hx : ∀ i, ∃ r : ℝ, x i = ((r : ℝ) : EReal))
    (gw gb : A1.Idx → EReal) (wq : A2.Idx → EReal) (bq : A1.Idx → EReal)
    (wk : A2.Idx → EReal) (bk : A1.Idx → EReal) (wv : A2.Idx → EReal) (bv : A1.Idx → EReal)
    (wp : A2.Idx → EReal) (bp : A1.Idx → EReal) :
    resR x gw gb wq bq wk bk wv bv wp bp = resK x gw gb wq bq wk bk wv bv wp bp := by
  funext i
  unfold resR resK
  rw [outR_eq_outK (batchOf x (i 0)) (fun c n => hx _)]

end Cert.Attn

end
-- ==== Proof.Finite.lean ====
/-
  From the precondition to real numbers: "every float input is finite" is printed as the conjunction, over the eleven
  arguments, of "all entries satisfy |v| < +∞". Its first conjunct says that every entry of the input x is a real number
  (an extended real whose absolute value max v (−v) lies below the top is neither infinity).
-/
import proofs.«105434_j74663711474018_2_alg».proof.Pre_finite_inputs
import proofs.«105434_j74663711474018_2_alg».proof.Proof.Gen.Pre_finite_inputs
import Idealize.ShloMosaic.PureOps.Ideal
import Idealize.ShloMosaic.Lib.ReduceAll
import Idealize.ShloMosaic.Lib.ValueIdx
import Idealize.ShloMosaic.Lib.Affine

noncomputable section

namespace Cert.Finite

open Idealize.ShloMosaic Cert.Pre_finite_inputs Cert.Pre_finite_inputs.Gen

instance : Subsingleton S_.Idx := ⟨fun a b => funext fun d => d.elim0⟩

/-- The left conjunct of a pointwise "and" that is one. -/
theorem and_left {a b : IVec S_ 1} (e : andi a b ValueIdx.ix0 = 1#1) : a ValueIdx.ix0 = 1#1 :=
  (IntOp.andi_eq_one.mp e).1

/-- An extended real whose absolute value is below +∞ is a real number. -/
theorem real_of_abs_lt (v : EReal) (h : Ideal.cmp .olt (max v (-v)) (Ideal.ofBits .f32 0x7F800000#32) = 1#1) :
    ∃ r : ℝ, v = ((r : ℝ) : EReal) := by
  have htop : Ideal.ofBits .f32 0x7F800000#32 = (⊤ : EReal) := by simp [Ideal.ofBits, Ideal.ieee]
  rw [htop] at h
  have hlt : max v (-v) < ⊤ := by
    by_contra hn
    simp [Ideal.cmp, hn] at h
  induction v using EReal.rec with
  | bot => simp at hlt
  | coe r => exact ⟨r, rfl⟩
  | top => simp at hlt

/-- Under the precondition every entry of the first argument is a real number. -/
theorem x_real (x : FVec Ideal S32x512x32x32 .f32) (gw gb : FVec Ideal S512 .f32)
    (wq : FVec Ideal S512x512 .f32) (bq : FVec Ideal S512 .f32) (wk : FVec Ideal S512x512 .f32) (bk : FVec Ideal S512 .f32)
    (wv : FVec Ideal S512x512 .f32) (bv : FVec Ideal S512 .f32) (wp : FVec Ideal S512x512 .f32) (bp : FVec Ideal S512 .f32)
    (h : fn (F := Ideal) x gw gb wq bq wk bk wv bv wp bp = fun _ => 1#1) (i : S32x512x32x32.Idx) :
    ∃ r : ℝ, x i = ((r : ℝ) : EReal) := by
  have h0 := congrFun h ValueIdx.ix0
  dsimp only [fn, fn_part1, fn_part2, fn_part3] at h0
  have h3 := and_left (and_left (and_left (and_left (and_left (and_left (and_left (and_left (and_left (and_left h0)))))))))
  have hi := Host.reduce_andi_all _ _ _ _ _ h3 i
  exact real_of_abs_lt (x i) hi

end Cert.Finite

end
-- ==== Proof.lean ====
/-
  The certificate of a fused GroupNorm + single-head attention kernel against its reference, on the extended reals.

  Both programs compute, for each of 32 batch entries, on the [512 channels] × [1024 tokens] array X of that entry:
  GroupNorm over 32 groups of 16 channels (mean and variance of a group's 16384 entries, x̂ = (x − μ) · rsqrt(σ² + ε),
  then a per-channel scale and shift), three 512 × 512 linear maps q, k, v of x̂, the scores qᵀk · 512^(-1/2), a row
  softmax, the mix v · softmaxᵀ, a fourth linear map, and the sum with X. The kernel keeps channel-major blocks, takes
  the group statistics from per-channel sums and the variance as E[x²] − (E[x])²; the reference moves to token-major
  layout, sums each group at once and takes the variance as the mean of the squared deviations. Changes of float format
  are the identity at this instance, and both programs carry the same words for ε and the score scale.

  The kernel's run is read off its generated frame, block by block, down to the specification `Cert.Attn.resK`; the
  reference's run is written out operation by operation (it calls an outlined variance function) and its term is read
  index by index down to `Cert.Attn.resR`; and `resR = resK` whenever every entry of the input is a real number, which
  is what the precondition's first conjunct says (the one place the precondition is used: E[(x − μ)²] = E[x²] − μ² needs
  real arithmetic). The idealization rewrote nothing, so its soundness claim is trivial.
-/
import proofs.«105434_j74663711474018_2_alg».proof.Defs
import proofs.«105434_j74663711474018_2_alg».proof.Proof.Gen.Kernel
import proofs.«105434_j74663711474018_2_alg».proof.Proof.Gen.Kernel.Frame
import proofs.«105434_j74663711474018_2_alg».proof.Proof.Gen.KernelIdeal
import proofs.«105434_j74663711474018_2_alg».proof.Proof.Gen.KernelIdeal.Frame
import proofs.«105434_j74663711474018_2_alg».proof.Proof.Gen.ReferenceIdeal
import proofs.«105434_j74663711474018_2_alg».proof.Proof.Gen.Pre_finite_inputs
import proofs.«105434_j74663711474018_2_alg».proof.Proof.KernelValue
import proofs.«105434_j74663711474018_2_alg».proof.Proof.RefRun
import proofs.«105434_j74663711474018_2_alg».proof.Proof.RefRead
import proofs.«105434_j74663711474018_2_alg».proof.Proof.SpecMath
import proofs.«105434_j74663711474018_2_alg».proof.Proof.Finite

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefRun.run m ρ)

/-- The kernel ends at `resK` of its arguments, the reference at `resR` of arguments that agree with them, and the two
    are one array because the input's entries are real numbers. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10, Cert.ReferenceIdeal.RefRead.refTerm_eq]
  exact Cert.Attn.resR_eq_resK _ (fun i => Cert.Finite.x_real _ _ _ _ _ _ _ _ _ _ _ (hpre c) i) _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
